-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x262144 : Shape := ⟨2, ![128, 262144]⟩
abbrev S1835008 : Shape := ⟨1, ![1835008]⟩
abbrev S_ : Shape := ⟨0, ![]⟩
abbrev S262144 : Shape := ⟨1, ![262144]⟩
abbrev S1835008x1 : Shape := ⟨2, ![1835008, 1]⟩
abbrev S128x1835008 : Shape := ⟨2, ![128, 1835008]⟩
abbrev S1x1835008 : Shape := ⟨2, ![1, 1835008]⟩
abbrev S128 : Shape := ⟨1, ![128]⟩

class Facts : Prop where
  bcast_S_S128x262144 : S_.BroadcastsInDim S128x262144 (![] : Fin 0 → Fin S128x262144.rank)
  reducesTo_S128x262144_S_d0_1 : S128x262144.ReducesTo [0, 1] S_
  h_S_ : 0 < S_.numel
  bcast_S_S1835008 : S_.BroadcastsInDim S1835008 (![] : Fin 0 → Fin S1835008.rank)
  reducesTo_S1835008_S_d0 : S1835008.ReducesTo [0] S_
  bcast_S_S262144 : S_.BroadcastsInDim S262144 (![] : Fin 0 → Fin S262144.rank)
  bcast_S1835008_S1835008x1_0 : S1835008.BroadcastsInDim S1835008x1 (![0] : Fin 1 → Fin S1835008x1.rank)
  bcast_S1835008_S1x1835008_1 : S1835008.BroadcastsInDim S1x1835008 (![1] : Fin 1 → Fin S1x1835008.rank)
  bcast_S1x1835008_S128x1835008_0_1 : S1x1835008.BroadcastsInDim S128x1835008 (![0, 1] : Fin 2 → Fin S128x1835008.rank)
  bcast_S262144_S128x262144_1 : S262144.BroadcastsInDim S128x262144 (![1] : Fin 1 → Fin S128x262144.rank)
  reducesTo_S128x262144_S128_d1 : S128x262144.ReducesTo [1] S128
  bcast_S_S128 : S_.BroadcastsInDim S128 (![] : Fin 0 → Fin S128.rank)
  reducesTo_S128_S_d0 : S128.ReducesTo [0] S_
  gather_S128x262144_S1835008x1_S128x1835008_0_1_n_n_1_1_1281_wf : GatherDims.WF S128x262144 S1835008x1 S128x1835008 [0] [1] [] [1] [] 1 ![128, 1]
  scatter_S128x262144_S1835008x1_S128x1835008_0_1_1_1_wf : ScatterDims.WF S128x262144 S1835008x1 S128x1835008 [0] [1] [1] 1

variable [Facts]

def gather_S128x262144_S1835008x1_S128x1835008_0_1_n_n_1_1_1281 : GatherDims S128x262144 S1835008x1 S128x1835008 where
  offsetDims := [0]
  collapsedSliceDims := [1]
  operandBatchingDims := []
  startIndicesBatchingDims := []
  startIndexMap := [1]
  indexVectorDim := 1
  sliceSizes := ![128, 1]
  wf := gather_S128x262144_S1835008x1_S128x1835008_0_1_n_n_1_1_1281_wf
def scatter_S128x262144_S1835008x1_S128x1835008_0_1_1_1 : ScatterDims S128x262144 S1835008x1 S128x1835008 where
  updateWindowDims := [0]
  insertedWindowDims := [1]
  scatterDimsToOperandDims := [1]
  indexVectorDim := 1
  wf := scatter_S128x262144_S1835008x1_S128x1835008_0_1_1_1_wf
def fn_part1 {F : FTy → Type} [FloatOps F] (main_arg0 : FVec F S128x262144 .f32) (main_arg2 : FVec F S1835008 .f32) (main_arg4 : IVec S1835008 32) (main_v13 : IVec S_ 1) (main_v14 : FVec F S262144 .f32) (main_v15 : IVec S1835008x1 32) (main_c_5 : IVec S_ 32) : IVec S_ 1 :=
  let main_v16 : IVec S1835008 32 := broadcastInDim S1835008 ![] bcast_S_S1835008 main_c_5
  let main_v17 : IVec S1835008 1 := cmpi .slt main_arg4 main_v16
  let main_c_6 : IVec S_ 32 := constantI S_ 32 262144#32
  let main_v18 : IVec S1835008 32 := broadcastInDim S1835008 ![] bcast_S_S1835008 main_c_6
  let main_v19 : IVec S1835008 32 := addi main_arg4 main_v18
  let main_v20 : IVec S1835008 32 := select main_v17 main_v19 main_arg4
  let main_v21 : IVec S1835008x1 32 := broadcastInDim S1835008x1 ![0] bcast_S1835008_S1835008x1_0 main_v20
  let main_v22 : FVec F S128x1835008 .f32 := (fun x i => Host.gather gather_S128x262144_S1835008x1_S128x1835008_0_1_n_n_1_1_1281 x i) main_arg0 main_v21
  let main_v23 : FVec F S1x1835008 .f32 := broadcastInDim S1x1835008 ![1] bcast_S1835008_S1x1835008_1 main_arg2
  let main_v24 : FVec F S128x1835008 .f32 := broadcastInDim S128x1835008 ![0, 1] bcast_S1x1835008_S128x1835008_0_1 main_v23
  let main_v25 : FVec F S128x1835008 .f32 := mulf main_v24 main_v22
  let main_v26 : FVec F S128x262144 .f32 := broadcastInDim S128x262144 ![1] bcast_S262144_S128x262144_1 main_v14
  let main_v27 : FVec F S128x262144 .f32 := (fun x i u => Host.scatterAdd scatter_S128x262144_S1835008x1_S128x1835008_0_1_1_1 x i u) main_v26 main_v15 main_v25
  let main_v28 : FVec F S128x262144 .f32 := mulf main_arg0 main_v27
  let main_cst_7 : FVec F S_ .f32 := constant S_ .f32 0x00000000#32
  let main_v29 : FVec F S128 .f32 := (fun x v => Host.reduceAdd x v reducesTo_S128x262144_S128_d1 h_S_) main_v28 main_cst_7
  let main_cst_8 : FVec F S_ .f32 := constant S_ .f32 0x00000000#32
  let main_v30 : FVec F S128 .f32 := broadcastInDim S128 ![] bcast_S_S128 main_cst_8
  let main_v31 : IVec S128 1 := cmpf .une main_v29 main_v30
  let main_c_9 : IVec S_ 1 := constantI S_ 1 1#1
  let main_v32 : IVec S_ 1 := (fun x v => Host.reduce IntOp.andi x v reducesTo_S128_S_d0 h_S_) main_v31 main_c_9
  let main_v33 : IVec S_ 1 := andi main_v13 main_v32
  main_v33

def fn {F : FTy → Type} [FloatOps F] (main_arg0 : FVec F S128x262144 .f32) (main_arg1 : FVec F S128x262144 .f32) (main_arg2 : FVec F S1835008 .f32) (main_arg3 : IVec S1835008 32) (main_arg4 : IVec S1835008 32) : IVec S_ 1 :=
  let main_v0 : FVec F S128x262144 .f32 := Host.absf main_arg0
  let main_cst : FVec F S_ .f32 := constant S_ .f32 0x7F800000#32
  let main_v1 : FVec F S128x262144 .f32 := broadcastInDim S128x262144 ![] bcast_S_S128x262144 main_cst
  let main_v2 : IVec S128x262144 1 := cmpf .olt main_v0 main_v1
  let main_c : IVec S_ 1 := constantI S_ 1 1#1
  let main_v3 : IVec S_ 1 := (fun x v => Host.reduce IntOp.andi x v reducesTo_S128x262144_S_d0_1 h_S_) main_v2 main_c
  let main_v4 : FVec F S128x262144 .f32 := Host.absf main_arg1
  let main_cst_0 : FVec F S_ .f32 := constant S_ .f32 0x7F800000#32
  let main_v5 : FVec F S128x262144 .f32 := broadcastInDim S128x262144 ![] bcast_S_S128x262144 main_cst_0
  let main_v6 : IVec S128x262144 1 := cmpf .olt main_v4 main_v5
  let main_c_1 : IVec S_ 1 := constantI S_ 1 1#1
  let main_v7 : IVec S_ 1 := (fun x v => Host.reduce IntOp.andi x v reducesTo_S128x262144_S_d0_1 h_S_) main_v6 main_c_1
  let main_v8 : IVec S_ 1 := andi main_v3 main_v7
  let main_v9 : FVec F S1835008 .f32 := Host.absf main_arg2
  let main_cst_2 : FVec F S_ .f32 := constant S_ .f32 0x7F800000#32
  let main_v10 : FVec F S1835008 .f32 := broadcastInDim S1835008 ![] bcast_S_S1835008 main_cst_2
  let main_v11 : IVec S1835008 1 := cmpf .olt main_v9 main_v10
  let main_c_3 : IVec S_ 1 := constantI S_ 1 1#1
  let main_v12 : IVec S_ 1 := (fun x v => Host.reduce IntOp.andi x v reducesTo_S1835008_S_d0 h_S_) main_v11 main_c_3
  let main_v13 : IVec S_ 1 := andi main_v8 main_v12
  let main_cst_4 : FVec F S_ .f32 := constant S_ .f32 0x00000000#32
  let main_v14 : FVec F S262144 .f32 := broadcastInDim S262144 ![] bcast_S_S262144 main_cst_4
  let main_v15 : IVec S1835008x1 32 := broadcastInDim S1835008x1 ![0] bcast_S1835008_S1835008x1_0 main_arg3
  let main_c_5 : IVec S_ 32 := constantI S_ 32 0#32
  fn_part1 (F := F) main_arg0 main_arg2 main_arg4 main_v13 main_v14 main_v15 main_c_5
-- ==== Kernel.lean ====
abbrev S128x262144 : Shape := ⟨2, ![128, 262144]⟩
abbrev S1835008 : Shape := ⟨1, ![1835008]⟩
abbrev S262144x128 : Shape := ⟨2, ![262144, 128]⟩
abbrev S1835008x1 : Shape := ⟨2, ![1835008, 1]⟩
abbrev S_ : Shape := ⟨0, ![]⟩
abbrev S1835008x128 : Shape := ⟨2, ![1835008, 128]⟩
abbrev S1x128 : Shape := ⟨2, ![1, 128]⟩
abbrev S8192x128 : Shape := ⟨2, ![8192, 128]⟩
abbrev S128 : Shape := ⟨1, ![128]⟩

abbrev nBuf : Space → Nat
  | .hbm => 28
  | .vmem => 12
  | .smem => 0
  | _ => 0

abbrev bufTy : (tb : Table) → Fin (tcTables nBuf tb) → BufTy
  | .hbm, ⟨0, _⟩ => ⟨S128x262144, .f32⟩
  | .hbm, ⟨1, _⟩ => ⟨S128x262144, .f32⟩
  | .hbm, ⟨2, _⟩ => ⟨S1835008, .f32⟩
  | .hbm, ⟨3, _⟩ => ⟨S1835008, .i32⟩
  | .hbm, ⟨4, _⟩ => ⟨S1835008, .i32⟩
  | .hbm, ⟨5, _⟩ => ⟨S262144x128, .f32⟩
  | .hbm, ⟨6, _⟩ => ⟨S262144x128, .f32⟩
  | .hbm, ⟨7, _⟩ => ⟨S1835008x1, .f32⟩
  | .hbm, ⟨8, _⟩ => ⟨S_, .i32⟩
  | .hbm, ⟨9, _⟩ => ⟨S1835008, .i32⟩
  | .hbm, ⟨10, _⟩ => ⟨S1835008, .i1⟩
  | .hbm, ⟨11, _⟩ => ⟨S_, .i32⟩
  | .hbm, ⟨12, _⟩ => ⟨S1835008, .i32⟩
  | .hbm, ⟨13, _⟩ => ⟨S1835008, .i32⟩
  | .hbm, ⟨14, _⟩ => ⟨S1835008, .i32⟩
  | .hbm, ⟨15, _⟩ => ⟨S1835008x1, .i32⟩
  | .hbm, ⟨16, _⟩ => ⟨S1835008x128, .f32⟩
  | .hbm, ⟨17, _⟩ => ⟨S1835008x128, .f32⟩
  | .hbm, ⟨18, _⟩ => ⟨S1835008x128, .f32⟩
  | .hbm, ⟨19, _⟩ => ⟨S_, .f32⟩
  | .hbm, ⟨20, _⟩ => ⟨S262144x128, .f32⟩
  | .hbm, ⟨21, _⟩ => ⟨S1835008x1, .i32⟩
  | .hbm, ⟨22, _⟩ => ⟨S262144x128, .f32⟩
  | .hbm, ⟨23, _⟩ => ⟨S1x128, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | _, _ => ⟨S128x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v49 : BitVec 1 := Scalar.cmpi .eq arg0 c31_i32
  let v50 : BitVec 32 := Scalar.extui v49
  let c0_i32_30 : BitVec 32 := 0#32
  let v51 : BitVec 1 := Scalar.cmpi .ne v50 c0_i32_30
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  transposes_S128x262144_S262144x128_1_0 : S128x262144.Transposes [1, 0] S262144x128
  bcast_S1835008_S1835008x1_0 : S1835008.BroadcastsInDim S1835008x1 (![0] : Fin 1 → Fin S1835008x1.rank)
  bcast_S_S1835008 : S_.BroadcastsInDim S1835008 (![] : Fin 0 → Fin S1835008.rank)
  bcast_S1835008x1_S1835008x128_0_1 : S1835008x1.BroadcastsInDim S1835008x128 (![0, 1] : Fin 2 → Fin S1835008x128.rank)
  bcast_S_S262144x128 : S_.BroadcastsInDim S262144x128 (![] : Fin 0 → Fin S262144x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S128 : S8192x128.Reduces [0] S128
  shapeCasts_S128_S1x128 : S128.ShapeCasts S1x128
  reducesTo_S1x128_S_d0_1 : S1x128.ReducesTo [0, 1] S_
  h_S_ : 0 < S_.numel
  gather_S262144x128_S1835008x1_S1835008x128_1_0_n_n_0_1_1128_wf : GatherDims.WF S262144x128 S1835008x1 S1835008x128 [1] [0] [] [0] [] 1 ![1, 128]
  scatter_S262144x128_S1835008x1_S1835008x128_1_0_0_1_wf : ScatterDims.WF S262144x128 S1835008x1 S1835008x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S262144x128.size a
  hwx0_2 : ∀ i : grid0.Coords, EltTy.bits .f32 = 32 ∨ (Rect.block (s := S262144x128) S8192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)

variable [Facts₀]

def gather_S262144x128_S1835008x1_S1835008x128_1_0_n_n_0_1_1128 : GatherDims S262144x128 S1835008x1 S1835008x128 where
  offsetDims := [1]
  collapsedSliceDims := [0]
  operandBatchingDims := []
  startIndicesBatchingDims := []
  startIndexMap := [0]
  indexVectorDim := 1
  sliceSizes := ![1, 128]
  wf := gather_S262144x128_S1835008x1_S1835008x128_1_0_n_n_0_1_1128_wf
def scatter_S262144x128_S1835008x1_S1835008x128_1_0_0_1 : ScatterDims S262144x128 S1835008x1 S1835008x128 where
  updateWindowDims := [1]
  insertedWindowDims := [0]
  scatterDimsToOperandDims := [0]
  indexVectorDim := 1
  wf := scatter_S262144x128_S1835008x1_S1835008x128_1_0_0_1_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S128x262144 : Shape := ⟨2, ![128, 262144]⟩
abbrev S1835008 : Shape := ⟨1, ![1835008]⟩
abbrev S_ : Shape := ⟨0, ![]⟩
abbrev S1835008x1 : Shape := ⟨2, ![1835008, 1]⟩
abbrev S128x1835008 : Shape := ⟨2, ![128, 1835008]⟩
abbrev S1x1835008 : Shape := ⟨2, ![1, 1835008]⟩
abbrev S262144 : Shape := ⟨1, ![262144]⟩
abbrev S128 : Shape := ⟨1, ![128]⟩
abbrev S128x1 : Shape := ⟨2, ![128, 1]⟩

abbrev nBuf : Space → Nat
  | .hbm => 40
  | .vmem => 0
  | .smem => 0
  | _ => 0

abbrev bufTy : (tb : Table) → Fin (tcTables nBuf tb) → BufTy
  | .hbm, ⟨0, _⟩ => ⟨S128x262144, .f32⟩
  | .hbm, ⟨1, _⟩ => ⟨S128x262144, .f32⟩
  | .hbm, ⟨2, _⟩ => ⟨S1835008, .f32⟩
  | .hbm, ⟨3, _⟩ => ⟨S1835008, .i32⟩
  | .hbm, ⟨4, _⟩ => ⟨S1835008, .i32⟩
  | .hbm, ⟨5, _⟩ => ⟨S_, .i32⟩
  | .hbm, ⟨6, _⟩ => ⟨S1835008, .i32⟩
  | .hbm, ⟨7, _⟩ => ⟨S1835008, .i1⟩
  | .hbm, ⟨8, _⟩ => ⟨S_, .i32⟩
  | .hbm, ⟨9, _⟩ => ⟨S1835008, .i32⟩
  | .hbm, ⟨10, _⟩ => ⟨S1835008, .i32⟩
  | .hbm, ⟨11, _⟩ => ⟨S1835008, .i32⟩
  | .hbm, ⟨12, _⟩ => ⟨S1835008x1, .i32⟩
  | .hbm, ⟨13, _⟩ => ⟨S128x1835008, .f32⟩
  | .hbm, ⟨14, _⟩ => ⟨S1x1835008, .f32⟩
  | .hbm, ⟨15, _⟩ => ⟨S128x1835008, .f32⟩
  | .hbm, ⟨16, _⟩ => ⟨S128x1835008, .f32⟩
  | .hbm, ⟨17, _⟩ => ⟨S_, .f32⟩
  | .hbm, ⟨18, _⟩ => ⟨S262144, .f32⟩
  | .hbm, ⟨19, _⟩ => ⟨S1835008x1, .i32⟩
  | .hbm, ⟨20, _⟩ => ⟨S128x262144, .f32⟩
  | .hbm, ⟨21, _⟩ => ⟨S128x262144, .f32⟩
  | .hbm, ⟨22, _⟩ => ⟨S128x262144, .f32⟩
  | .hbm, ⟨23, _⟩ => ⟨S_, .f32⟩
  | .hbm, ⟨24, _⟩ => ⟨S128, .f32⟩
  | .hbm, ⟨25, _⟩ => ⟨S128x262144, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128x1, .f32⟩
  | .hbm, ⟨30, _⟩ => ⟨S128x262144, .f32⟩
  | .hbm, ⟨31, _⟩ => ⟨S128x262144, .f32⟩
  | .hbm, ⟨32, _⟩ => ⟨S128x262144, .f32⟩
  | .hbm, ⟨33, _⟩ => ⟨S128x262144, .f32⟩
  | .hbm, ⟨34, _⟩ => ⟨S_, .f32⟩
  | .hbm, ⟨35, _⟩ => ⟨S128, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S128x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S_S1835008 : S_.BroadcastsInDim S1835008 (![] : Fin 0 → Fin S1835008.rank)
  bcast_S1835008_S1835008x1_0 : S1835008.BroadcastsInDim S1835008x1 (![0] : Fin 1 → Fin S1835008x1.rank)
  bcast_S1835008_S1x1835008_1 : S1835008.BroadcastsInDim S1x1835008 (![1] : Fin 1 → Fin S1x1835008.rank)
  bcast_S1x1835008_S128x1835008_0_1 : S1x1835008.BroadcastsInDim S128x1835008 (![0, 1] : Fin 2 → Fin S128x1835008.rank)
  bcast_S_S262144 : S_.BroadcastsInDim S262144 (![] : Fin 0 → Fin S262144.rank)
  bcast_S262144_S128x262144_1 : S262144.BroadcastsInDim S128x262144 (![1] : Fin 1 → Fin S128x262144.rank)
  reducesTo_S128x262144_S128_d1 : S128x262144.ReducesTo [1] S128
  h_S_ : 0 < S_.numel
  bcast_S128_S128x1_0 : S128.BroadcastsInDim S128x1 (![0] : Fin 1 → Fin S128x1.rank)
  bcast_S128x1_S128x262144_0_1 : S128x1.BroadcastsInDim S128x262144 (![0, 1] : Fin 2 → Fin S128x262144.rank)
  reducesTo_S128_S_d0 : S128.ReducesTo [0] S_
  gather_S128x262144_S1835008x1_S128x1835008_0_1_n_n_1_1_1281_wf : GatherDims.WF S128x262144 S1835008x1 S128x1835008 [0] [1] [] [1] [] 1 ![128, 1]
  scatter_S128x262144_S1835008x1_S128x1835008_0_1_1_1_wf : ScatterDims.WF S128x262144 S1835008x1 S128x1835008 [0] [1] [1] 1

variable [Facts₀]

def gather_S128x262144_S1835008x1_S128x1835008_0_1_n_n_1_1_1281 : GatherDims S128x262144 S1835008x1 S128x1835008 where
  offsetDims := [0]
  collapsedSliceDims := [1]
  operandBatchingDims := []
  startIndicesBatchingDims := []
  startIndexMap := [1]
  indexVectorDim := 1
  sliceSizes := ![128, 1]
  wf := gather_S128x262144_S1835008x1_S128x1835008_0_1_n_n_1_1_1281_wf
def scatter_S128x262144_S1835008x1_S128x1835008_0_1_1_1 : ScatterDims S128x262144 S1835008x1 S128x1835008 where
  updateWindowDims := [0]
  insertedWindowDims := [1]
  scatterDimsToOperandDims := [1]
  indexVectorDim := 1
  wf := scatter_S128x262144_S1835008x1_S128x1835008_0_1_1_1_wf

class Facts : Prop extends Facts₀ where

variable [Facts]
-- ==== Proof.LibScatterRows.lean ====
/-
  An accumulating scatter of ROWS read at an entry, over the extended reals.

  `jax.ops.segment_sum(U, ids, num_segments = N)` of a matrix `U : [E, H]` into the zero matrix `[N, H]` is a
  `stablehlo.scatter` with an `add` body whose scatter indices have shape `[E, 1]` (the index vector on axis 1, one
  component, mapped to operand axis 0), operand axis 0 an inserted window axis, and the updates' axis 1 the one window axis.
  StableHLO reads the scatter index `ids[e, 0]` as a SIGNED integer and does NOT clamp it: update row `e` is added to
  operand row `ids[e, 0]` when that number names a row, and is dropped otherwise. `tgt N ids e` is that row, if any.
  The theorem says that entry `(p, q)` of the result is the operand's entry plus the sum, over the update rows `e` whose
  target is `p`, of the update's entry `(e, q)`.
-/
import Idealize.ShloMosaic.PureOps.Ideal
import Idealize.ShloMosaic.PureOps.Ideal.Laws
import Idealize.ShloMosaic.Lib.ValueIdx

noncomputable section

open scoped BigOperators

namespace ScatterRows

open Idealize.ShloMosaic Idealize.ShloMosaic.ValueIdx

/-- The operand row that update row `e` is added to: the scatter index `idx[e, 0]` read as a signed integer, when it
    names one of the `N` rows; no row otherwise. -/
def tgt (N : Nat) {E w : Nat} (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩
  else none

/-- Axis 0 of the operand is named by the scatter-dims-to-operand-dims map: the window of update index `j` starts at the
    scatter index `idx[j 0, 0]`, read signed. -/
theorem start_zero {N H E w : Nat}
    (d : ScatterDims ⟨2, ![N, H]⟩ ⟨2, ![E, 1]⟩ ⟨2, ![E, H]⟩)
    (huw : d.updateWindowDims = [1]) (hiw : d.insertedWindowDims = [0]) (hsd : d.scatterDimsToOperandDims = [0])
    (hiv : d.indexVectorDim = 1) (idx : IVec ⟨2, ![E, 1]⟩ w) (j : (⟨2, ![E, H]⟩ : Shape).Idx) :
    d.start j idx 0 = (idx (ix2 (j 0) (0 : Fin 1))).toInt := by
  obtain ⟨uw, iw, sd, iv, wf⟩ := d
  simp only at huw hiw hsd hiv
  subst huw hiw hsd hiv
  unfold ScatterDims.start
  have hmem : (0 : Fin 2) ∈ ([0] : List (Fin 2)) := List.mem_singleton.mpr rfl
  rw [dif_pos hmem]
  have hsi : ScatterDims.siIdx (s := ⟨2, ![N, H]⟩) (si := ⟨2, ![E, 1]⟩) (u := ⟨2, ![E, H]⟩)
      ⟨[1], [0], [0], 1, wf⟩ j ⟨List.idxOf (0 : Fin 2) [0], List.idxOf_lt_length_iff.2 hmem⟩
        = ix2 (j 0) (0 : Fin 1) := by
    funext b; refine Fin.ext ?_
    match b with
    | ⟨0, _⟩ => rfl
    | ⟨1, _⟩ => rfl
  rw [hsi]
  rfl

/-- Axis 1 of the operand is not named by the map: every window starts at 0 there. -/
theorem start_one {N H E w : Nat}
    (d : ScatterDims ⟨2, ![N, H]⟩ ⟨2, ![E, 1]⟩ ⟨2, ![E, H]⟩)
    (hsd : d.scatterDimsToOperandDims = [0])
    (idx : IVec ⟨2, ![E, 1]⟩ w) (j : (⟨2, ![E, H]⟩ : Shape).Idx) :
    d.start j idx 1 = 0 := by
  unfold ScatterDims.start
  rw [dif_neg (by rw [hsd]; exact (show (1 : Fin 2) ∉ ([0] : List (Fin 2)) by decide))]

/-- Axis 0 of the operand is an inserted window axis: the window coordinate there is 0. -/
theorem window_zero {N H E : Nat}
    (d : ScatterDims ⟨2, ![N, H]⟩ ⟨2, ![E, 1]⟩ ⟨2, ![E, H]⟩)
    (hiw : d.insertedWindowDims = [0]) (j : (⟨2, ![E, H]⟩ : Shape).Idx) :
    d.window j 0 = 0 := by
  unfold ScatterDims.window
  rw [dif_neg (by
    rw [ScatterDims.sKept, hiw]
    exact (show (0 : Fin 2) ∉ (List.finRange 2).filter (fun a => a ∉ ([0] : List (Fin 2))) by decide))]

/-- Axis 1 of the operand is the one kept axis: the window coordinate there is the update index's coordinate on
    its one window axis, axis 1. -/
theorem window_one {N H E : Nat}
    (d : ScatterDims ⟨2, ![N, H]⟩ ⟨2, ![E, 1]⟩ ⟨2, ![E, H]⟩)
    (huw : d.updateWindowDims = [1]) (hiw : d.insertedWindowDims = [0]) (j : (⟨2, ![E, H]⟩ : Shape).Idx) :
    d.window j 1 = (j 1).val := by
  obtain ⟨uw, iw, sd, iv, wf⟩ := d
  simp only at huw hiw
  subst huw hiw
  unfold ScatterDims.window
  rw [dif_pos (by
    exact (show (1 : Fin 2) ∈ (List.finRange 2).filter (fun a => a ∉ ([0] : List (Fin 2))) by decide))]
  rfl

/-- WHERE UPDATE ENTRY `(e, c)` LANDS: at operand entry `(p, q)` exactly when the column is kept, `c = q`, and the
    scatter index of row `e` names row `p`. On axis 0 the landing coordinate is the scatter index itself (window
    coordinate 0), in range exactly when `tgt` is a row; on axis 1 it is `c` (start 0), always in range. -/
theorem resultIdx_rows {N H E w : Nat}
    (d : ScatterDims ⟨2, ![N, H]⟩ ⟨2, ![E, 1]⟩ ⟨2, ![E, H]⟩)
    (huw : d.updateWindowDims = [1]) (hiw : d.insertedWindowDims = [0]) (hsd : d.scatterDimsToOperandDims = [0])
    (hiv : d.indexVectorDim = 1) (idx : IVec ⟨2, ![E, 1]⟩ w) (e : Fin E) (c : Fin H) (p : Fin N) (q : Fin H) :
    d.resultIdx? (ix2 e c) idx = some (ix2 p q) ↔ c = q ∧ tgt N idx e = some p := by
  have h0s : d.start (ix2 e c) idx 0 = (idx (ix2 e (0 : Fin 1))).toInt := start_zero d huw hiw hsd hiv idx (ix2 e c)
  have h1s : d.start (ix2 e c) idx 1 = 0 := start_one d hsd idx (ix2 e c)
  have h0w : d.window (ix2 e c) 0 = 0 := window_zero d hiw (ix2 e c)
  have h1w : d.window (ix2 e c) 1 = c.val := window_one d huw hiw (ix2 e c)
  have hc := c.isLt
  -- the landing index is inside the operand exactly when the scatter index names a row
  have hall : (∀ a, 0 ≤ d.start (ix2 e c) idx a + (d.window (ix2 e c) a : Int) ∧
        d.start (ix2 e c) idx a + (d.window (ix2 e c) a : Int) < ((⟨2, ![N, H]⟩ : Shape).size a : Nat))
      ↔ (0 ≤ (idx (ix2 e (0 : Fin 1))).toInt ∧ (idx (ix2 e (0 : Fin 1))).toInt < (N : Int)) := by
    constructor
    · intro h
      have h0 : 0 ≤ d.start (ix2 e c) idx 0 + (d.window (ix2 e c) 0 : Int) ∧
          d.start (ix2 e c) idx 0 + (d.window (ix2 e c) 0 : Int) < (N : Int) := h 0
      rw [h0s, h0w] at h0
      omega
    · intro h a
      match a with
      | ⟨0, _⟩ =>
        show 0 ≤ d.start (ix2 e c) idx 0 + (d.window (ix2 e c) 0 : Int) ∧
          d.start (ix2 e c) idx 0 + (d.window (ix2 e c) 0 : Int) < (N : Int)
        rw [h0s, h0w]; omega
      | ⟨1, _⟩ =>
        show 0 ≤ d.start (ix2 e c) idx 1 + (d.window (ix2 e c) 1 : Int) ∧
          d.start (ix2 e c) idx 1 + (d.window (ix2 e c) 1 : Int) < (H : Int)
        rw [h1s, h1w]; omega
  unfold ScatterDims.resultIdx? tgt
  by_cases hr : 0 ≤ (idx (ix2 e (0 : Fin 1))).toInt ∧ (idx (ix2 e (0 : Fin 1))).toInt < (N : Int)
  · rw [dif_pos (hall.mpr hr), dif_pos hr]
    constructor
    · intro h
      have hf := Option.some.inj h
      have e0 : (d.start (ix2 e c) idx 0 + (d.window (ix2 e c) 0 : Int)).toNat = p.val :=
        congrArg (fun f => (f 0).val) hf
      have e1 : (d.start (ix2 e c) idx 1 + (d.window (ix2 e c) 1 : Int)).toNat = q.val :=
        congrArg (fun f => (f 1).val) hf
      rw [h0s, h0w] at e0
      rw [h1s, h1w] at e1
      exact ⟨Fin.ext (by omega), congrArg some (Fin.ext (by show (idx (ix2 e (0 : Fin 1))).toInt.toNat = p.val; omega))⟩
    · rintro ⟨rfl, ht⟩
      have hp : (idx (ix2 e (0 : Fin 1))).toInt.toNat = p.val := congrArg Fin.val (Option.some.inj ht)
      refine congrArg some ?_
      funext a
      refine Fin.ext ?_
      match a with
      | ⟨0, _⟩ =>
        show (d.start (ix2 e c) idx 0 + (d.window (ix2 e c) 0 : Int)).toNat = p.val
        rw [h0s, h0w]; omega
      | ⟨1, _⟩ =>
        show (d.start (ix2 e c) idx 1 + (d.window (ix2 e c) 1 : Int)).toNat = c.val
        rw [h1s, h1w]; omega
  · rw [dif_neg (fun h => hr (hall.mp h)), dif_neg hr]
    constructor
    · intro h; cases h
    · rintro ⟨_, h⟩; cases h

/-- THE ROW SCATTER-ADD READ AT `(p, q)`: the operand's entry plus the update entries `(e, q)` of the rows `e` whose
    target is `p`. -/
theorem scatterAdd_rows_apply {N H E w : Nat}
    (d : ScatterDims ⟨2, ![N, H]⟩ ⟨2, ![E, 1]⟩ ⟨2, ![E, H]⟩)
    (huw : d.updateWindowDims = [1]) (hiw : d.insertedWindowDims = [0]) (hsd : d.scatterDimsToOperandDims = [0])
    (hiv : d.indexVectorDim = 1)
    (x : FVec Ideal ⟨2, ![N, H]⟩ .f32) (idx : IVec ⟨2, ![E, 1]⟩ w) (upd : FVec Ideal ⟨2, ![E, H]⟩ .f32)
    (p : Fin N) (q : Fin H) :
    Host.scatterAdd d x idx upd (ix2 p q)
      = (x (ix2 p q) : EReal) + ∑ e ∈ Finset.univ.filter (fun e => tgt N idx e = some p), (upd (ix2 e q) : EReal) := by
  show x (ix2 p q) + ∑ j ∈ Finset.univ.filter (fun j => d.resultIdx? j idx = some (ix2 p q)), upd j = _
  refine congrArg (fun t => x (ix2 p q) + t) ?_
  -- the update entries landing at `(p, q)` are the entries `(e, q)` of the rows `e` whose target is `p`
  refine Finset.sum_nbij' (fun j => j 0) (fun e => ix2 e q) ?_ ?_ ?_ ?_ ?_
  · intro j hj
    obtain ⟨a, b, rfl⟩ : ∃ a b, j = ix2 a b := ⟨j 0, j 1, eq_ix2 j⟩
    exact Finset.mem_filter.mpr ⟨Finset.mem_univ _,
      ((resultIdx_rows d huw hiw hsd hiv idx a b p q).mp (Finset.mem_filter.mp hj).2).2⟩
  · intro e he
    exact Finset.mem_filter.mpr ⟨Finset.mem_univ _,
      (resultIdx_rows d huw hiw hsd hiv idx e q p q).mpr ⟨rfl, (Finset.mem_filter.mp he).2⟩⟩
  · intro j hj
    obtain ⟨a, b, rfl⟩ : ∃ a b, j = ix2 a b := ⟨j 0, j 1, eq_ix2 j⟩
    obtain rfl : b = q := ((resultIdx_rows d huw hiw hsd hiv idx a b p q).mp (Finset.mem_filter.mp hj).2).1
    rfl
  · intro e _
    rfl
  · intro j hj
    obtain ⟨a, b, rfl⟩ : ∃ a b, j = ix2 a b := ⟨j 0, j 1, eq_ix2 j⟩
    obtain rfl : b = q := ((resultIdx_rows d huw hiw hsd hiv idx a b p q).mp (Finset.mem_filter.mp hj).2).1
    rfl

end ScatterRows

end
-- ==== Proof.LibGatherRows.lean ====
/-
  A gather of ROWS read at an index.

  Indexing a flat array `x : [N]` or a matrix `X : [N, H]` by an integer array, `x[idx]` and `X[idx, :]`, is a
  `stablehlo.gather` whose start indices have shape `[E, 1]` (the index vector on axis 1, one component), that one
  component mapped to operand axis 0, operand axis 0 collapsed (slice size 1 there), no batching axes; for the matrix
  the second operand axis is kept whole (slice size `H`) and is the result's one offset axis.

  StableHLO reads every start index as a SIGNED integer and CLAMPS it so that the slice fits: on axis 0 the slice has
  size 1, so the start `idx[e, 0]` is clamped into `[0, N - 1]`. That clamped number is `row N hN idx e`. The two
  theorems say that result element `e` of the vector gather is `x[row e]`, and result element `(e, h)` of the row
  gather is `X[row e, h]`: BOTH FORMS READ THE SAME ROW, so a matrix scaled row by row and then gathered is the
  gathered rows times the gathered scale.

  The statements take an arbitrary record of dimension numbers and the values of its fields as hypotheses (each is
  `rfl` at a record written as a literal). The proofs compute StableHLO's operand index axis by axis: on axis 0 it is
  the clamped start (no batching coordinate, and no offset coordinate since the axis is collapsed); on the matrix's
  axis 1 the start is 0 (the start index map does not name it) and the offset coordinate is the result's second
  coordinate.
-/
import Idealize.ShloMosaic.Lib.ValueIdx

noncomputable section

namespace GatherRows

open Idealize.ShloMosaic Idealize.ShloMosaic.ValueIdx

variable {α : Type}

/-- The row that result position `e` reads: the start index `idx[e, 0]` read as a signed integer and clamped into
    `[0, N - 1]`. -/
def row (N : Nat) (hN : 0 < N) {E w : Nat} (idx : IVec ⟨2, ![E, 1]⟩ w) (e : Fin E) : Fin N :=
  ⟨min (idx (ix2 e (0 : Fin 1))).toInt.toNat (N - 1), by omega⟩

/-- The row as a natural number. -/
theorem row_val (N : Nat) (hN : 0 < N) {E w : Nat} (idx : IVec ⟨2, ![E, 1]⟩ w) (e : Fin E) :
    (row N hN idx e).val = min (idx (ix2 e (0 : Fin 1))).toInt.toNat (N - 1) := rfl

/-- VECTOR form, as an operand index: result position `e` reads the operand at `row e`. -/
theorem operandIdx_vec {N E w : Nat} (hN : 0 < N)
    (d : GatherDims ⟨1, ![N]⟩ ⟨2, ![E, 1]⟩ ⟨1, ![E]⟩)
    (hoff : d.offsetDims = []) (hcol : d.collapsedSliceDims = [0]) (hob : d.operandBatchingDims = [])
    (hmap : d.startIndexMap = [0]) (hiv : d.indexVectorDim = 1) (hsl : d.sliceSizes = ![1])
    (idx : IVec ⟨2, ![E, 1]⟩ w) (y : (⟨1, ![E]⟩ : Shape).Idx) :
    d.operandIdx y idx = ix1 (row N hN idx (y 0)) := by
  -- with the fields' values substituted the record is a literal, and its lists compute
  obtain ⟨od, cd, ob, sb, sm, iv, ss, wf⟩ := d
  simp only at hoff hcol hob hmap hiv hsl
  subst hoff hcol hob hmap hiv hsl
  funext a
  obtain rfl : a = 0 := Subsingleton.elim _ _
  refine Fin.ext ?_
  show GatherDims.start _ y idx 0 + GatherDims.batchCoord _ y 0 + GatherDims.offCoord _ y 0 = _
  -- no batching axis, and axis 0 is collapsed: only the clamped start is left
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  have hmem : (0 : Fin 1) ∈ ([0] : List (Fin 1)) := List.mem_singleton.mpr rfl
  rw [dif_pos hmem]
  -- the start index is read at `[e, 0]`
  have hsi : GatherDims.siIdx (s := ⟨1, ![N]⟩) (si := ⟨2, ![E, 1]⟩) (t := ⟨1, ![E]⟩)
      ⟨[], [0], [], sb, [0], 1, ![1], wf⟩ y
      ⟨List.idxOf (0 : Fin 1) [0], List.idxOf_lt_length_iff.2 hmem⟩ = ix2 (y 0) (0 : Fin 1) := by
    funext b; refine Fin.ext ?_
    match b with
    | ⟨0, _⟩ => rfl
    | ⟨1, _⟩ => rfl
  rw [hsi]
  rfl

/-- ROW form, as an operand index: result position `(e, h)` reads the operand at `(row e, h)`. -/
theorem operandIdx_rows {N H E w : Nat} (hN : 0 < N)
    (d : GatherDims ⟨2, ![N, H]⟩ ⟨2, ![E, 1]⟩ ⟨2, ![E, H]⟩)
    (hoff : d.offsetDims = [1]) (hcol : d.collapsedSliceDims = [0]) (hob : d.operandBatchingDims = [])
    (hmap : d.startIndexMap = [0]) (hiv : d.indexVectorDim = 1) (hsl : d.sliceSizes = ![1, H])
    (idx : IVec ⟨2, ![E, 1]⟩ w) (y : (⟨2, ![E, H]⟩ : Shape).Idx) :
    d.operandIdx y idx = ix2 (row N hN idx (y 0)) (y 1) := by
  obtain ⟨od, cd, ob, sb, sm, iv, ss, wf⟩ := d
  simp only at hoff hcol hob hmap hiv hsl
  subst hoff hcol hob hmap hiv hsl
  funext a
  refine Fin.ext ?_
  match a with
  | ⟨0, _⟩ =>
    -- axis 0: collapsed, in the start index map — the clamped start, as in the vector form
    show GatherDims.start _ y idx 0 + GatherDims.batchCoord _ y 0 + GatherDims.offCoord _ y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    have hmem : (0 : Fin 2) ∈ ([0] : List (Fin 2)) := List.mem_singleton.mpr rfl
    rw [dif_pos hmem]
    have hsi : GatherDims.siIdx (s := ⟨2, ![N, H]⟩) (si := ⟨2, ![E, 1]⟩) (t := ⟨2, ![E, H]⟩)
        ⟨[1], [0], [], sb, [0], 1, ![1, H], wf⟩ y
        ⟨List.idxOf (0 : Fin 2) [0], List.idxOf_lt_length_iff.2 hmem⟩ = ix2 (y 0) (0 : Fin 1) := by
      funext b; refine Fin.ext ?_
      match b with
      | ⟨0, _⟩ => rfl
      | ⟨1, _⟩ => rfl
    rw [hsi]
    rfl
  | ⟨1, _⟩ =>
    -- axis 1: not in the start index map (start 0), kept whole — the result's offset coordinate
    show GatherDims.start _ y idx 1 + GatherDims.batchCoord _ y 1 + GatherDims.offCoord _ y 1 = (y 1).val
    rw [GatherDims.batchCoord_eq_zero _ _ _ List.not_mem_nil]
    unfold GatherDims.start
    rw [dif_neg (show (1 : Fin 2) ∉ ([0] : List (Fin 2)) by decide)]
    unfold GatherDims.offCoord
    rw [dif_pos ((GatherDims.mem_sKept _ _).mpr
      ⟨(show (1 : Fin 2) ∉ ([0] : List (Fin 2)) by decide), List.not_mem_nil⟩)]
    simp only [Nat.zero_add]
    rfl

/-- THE VECTOR GATHER READ AT `e`: the operand at the start index `idx[e, 0]`, read signed and clamped into
    `[0, N - 1]`. -/
theorem gather_vec_apply {N E w : Nat} (hN : 0 < N)
    (d : GatherDims ⟨1, ![N]⟩ ⟨2, ![E, 1]⟩ ⟨1, ![E]⟩)
    (hoff : d.offsetDims = []) (hcol : d.collapsedSliceDims = [0]) (hob : d.operandBatchingDims = [])
    (hmap : d.startIndexMap = [0]) (hiv : d.indexVectorDim = 1) (hsl : d.sliceSizes = ![1])
    (x : (⟨1, ![N]⟩ : Shape).Idx → α) (idx : IVec ⟨2, ![E, 1]⟩ w) (y : (⟨1, ![E]⟩ : Shape).Idx) :
    Host.gather d x idx y = x (ix1 (row N hN idx (y 0))) := by
  exact congrArg x (operandIdx_vec hN d hoff hcol hob hmap hiv hsl idx y)

/-- THE ROW GATHER READ AT `(e, h)`: the operand's row at the start index `idx[e, 0]`, read signed and clamped
    into `[0, N - 1]`, at column `h` — the same row as the vector gather reads. -/
theorem gather_rows_apply {N H E w : Nat} (hN : 0 < N)
    (d : GatherDims ⟨2, ![N, H]⟩ ⟨2, ![E, 1]⟩ ⟨2, ![E, H]⟩)
    (hoff : d.offsetDims = [1]) (hcol : d.collapsedSliceDims = [0]) (hob : d.operandBatchingDims = [])
    (hmap : d.startIndexMap = [0]) (hiv : d.indexVectorDim = 1) (hsl : d.sliceSizes = ![1, H])
    (X : (⟨2, ![N, H]⟩ : Shape).Idx → α) (idx : IVec ⟨2, ![E, 1]⟩ w) (y : (⟨2, ![E, H]⟩ : Shape).Idx) :
    Host.gather d X idx y = X (ix2 (row N hN idx (y 0)) (y 1)) := by
  exact congrArg X (operandIdx_rows hN d hoff hcol hob hmap hiv hsl idx y)

end GatherRows

end
-- ==== Proof.Residual.lean ====
/-
  The residual energy of a batch against a sparse operator, as one function of the arguments.

  A sparse matrix `A` is stored as entries `e`, each with a value `vals e`, a target row `tg e` (absent when the stored row
  number names no row: such an entry is dropped) and a source column `cl e`. For one batch row with prediction `yp` and
  truth `yt` (vectors over the unknowns `n`):

    ya n      = sum over the entries e aimed at n of  vals e * yp (cl e)          (A applied to yp)
    c         = <yt, yp> / <yp, ya>
    energy    = sum over n of (yt n - c * ya n)^2

  and the result is the mean of the energies over the batch rows. One program evaluates the energy as written
  (`laneDirect`); the other accumulates the five inner products <yt,yp>, <yp,ya>, <yt,yt>, <yt,ya>, <ya,ya> and evaluates
  the expanded square  <yt,yt> - (2c)<yt,ya> + (c c)<ya,ya>  (`laneExpanded`). Everything is over the extended reals, with
  the quotient `Ideal.div` of the float model.
-/
import Idealize.ShloMosaic.PureOps.Ideal
import Idealize.ShloMosaic.Lib.ValueIdx
import proofs.«118962_j67894843015536_2_alg».proof.Proof.LibScatterRows
import proofs.«118962_j67894843015536_2_alg».proof.Proof.LibGatherRows

noncomputable section

open scoped BigOperators

namespace Cert.Residual

open Idealize.ShloMosaic Idealize.ShloMosaic.ValueIdx

/-! ## Over abstract index types -/

section abstract
variable {ι κ β : Type} [Fintype ι] [Fintype κ] [Fintype β] [DecidableEq ι]

/-- `A y`: entry `n` collects `vals e * y (cl e)` over the stored entries `e` aimed at `n`, starting from zero. -/
def applyA (vals : κ → EReal) (tg : κ → Option ι) (cl : κ → ι) (y : ι → EReal) (n : ι) : EReal :=
  0 + ∑ e ∈ Finset.univ.filter (fun e => tg e = some n), vals e * y (cl e)

/-- The inner product of two vectors over the unknowns. -/
def dot (u v : ι → EReal) : EReal := ∑ n, u n * v n

/-- The scale `c = <yt, yp> / <yp, ya>`. -/
def scale (yp yt ya : ι → EReal) : EReal := Ideal.div (dot yt yp) (dot yp ya)

/-- The energy of one batch row as the sum of squared residuals. -/
def laneDirect (yp yt ya : ι → EReal) : EReal :=
  ∑ n, (yt n - scale yp yt ya * ya n) * (yt n - scale yp yt ya * ya n)

/-- The energy of one batch row from the five inner products, the square expanded; `two` is the constant 2 as the
    program spells it. -/
def laneExpanded (two : EReal) (yp yt ya : ι → EReal) : EReal :=
  (dot yt yt - (two * scale yp yt ya) * dot yt ya) + (scale yp yt ya * scale yp yt ya) * dot ya ya

/-- The mean over the batch rows: the sum from zero, divided by the count `d` as the program spells it. -/
def mean (d : EReal) (lane : β → EReal) : EReal := Ideal.div (0 + ∑ b, lane b) d

end abstract

/-! ## At this problem's sizes: 128 batch rows, 262144 unknowns, 1835008 stored entries -/

abbrev SBN : Shape := ⟨2, ![128, 262144]⟩
abbrev SE : Shape := ⟨1, ![1835008]⟩
abbrev SE1 : Shape := ⟨2, ![1835008, 1]⟩

/-- The stored row numbers as a column `[E, 1]`. -/
def rowColumn (rows : IVec SE 32) : IVec SE1 32 := fun j => rows (ix1 (j 0))

/-- The stored column numbers as a column `[E, 1]`, a negative number counted from the end (`+ 262144`). -/
def colColumn (cols : IVec SE 32) : IVec SE1 32 := fun j =>
  if IntOp.cmpi .slt (cols (ix1 (j 0))) 0#32 = 1#1 then IntOp.addi (cols (ix1 (j 0))) 262144#32 else cols (ix1 (j 0))

/-- The row an entry is added to: its stored row number read signed, when it names a row. -/
def tgtOf (rows : IVec SE 32) (e : Fin 1835008) : Option (Fin 262144) := ScatterRows.tgt 262144 (rowColumn rows) e

/-- The column an entry reads: its stored column number, counted from the end when negative, read signed and clamped
    into the range of the unknowns. -/
def colOf (cols : IVec SE 32) (e : Fin 1835008) : Fin 262144 := GatherRows.row 262144 (by norm_num) (colColumn cols) e

/-- `A yp` for batch row `b`, from the argument arrays. -/
def ya (x0 : SBN.Idx → EReal) (x2 : SE.Idx → EReal) (x3 x4 : IVec SE 32) (b : Fin 128) (n : Fin 262144) : EReal :=
  applyA (fun e => x2 (ix1 e)) (tgtOf x3) (colOf x4) (fun k => x0 (ix2 b k)) n

/-- The result as the direct program computes it. -/
def resultDirect (d : EReal) (x0 x1 : SBN.Idx → EReal) (x2 : SE.Idx → EReal) (x3 x4 : IVec SE 32) : EReal :=
  mean d (fun b : Fin 128 => laneDirect (fun n => x0 (ix2 b n)) (fun n => x1 (ix2 b n)) (ya x0 x2 x3 x4 b))

/-- The result as the accumulating program computes it. -/
def resultExpanded (two d : EReal) (x0 x1 : SBN.Idx → EReal) (x2 : SE.Idx → EReal) (x3 x4 : IVec SE 32) : EReal :=
  mean d (fun b : Fin 128 => laneExpanded two (fun n => x0 (ix2 b n)) (fun n => x1 (ix2 b n)) (ya x0 x2 x3 x4 b))

end Cert.Residual

end
-- ==== Proof.ResidualLaw.lean ====
/-
  The expanded square equals the sum of squared residuals, where the law holds.

  For real vectors `t`, `a` and a real number `c`,

      sum_n (t n - c * a n)^2  =  <t,t> - (2 c) <t,a> + (c c) <a,a>,

  by distributing the product and pulling the constants out of the sums. Over the extended reals distributing a factor
  over a sum fails at an infinity, so the law is stated where every entry is a real number and the scale `c` is one:
  `c = <yt,yp> / <yp,ya>` is real exactly when the divisor `<yp,ya>` is not zero (a quotient by zero is an infinity
  in the float model). `A yp` has real entries when the stored values and `yp` do: it is a finite sum of products.
-/
import proofs.«118962_j67894843015536_2_alg».proof.Proof.Residual

noncomputable section

open scoped BigOperators

namespace Cert.Residual

open Idealize.ShloMosaic Idealize.ShloMosaic.ValueIdx

/-- The float pattern of `2.0` denotes the real number 2. -/
theorem two_bits : Ideal.ofBits .f32 0x40000000#32 = ((2 : ℝ) : EReal) := by
  simp [Ideal.ofBits, Ideal.ieee, -EReal.coe_mul]; norm_num

section law
variable {ι κ : Type} [Fintype ι] [Fintype κ]

/-- A finite sum of real numbers, read in the extended reals, is the sum of the numbers read there. -/
theorem coe_sum {α : Type} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inner product of two real vectors is the real inner product. -/
theorem dot_coe (u v : ι → ℝ) :
    dot (fun n => (u n : EReal)) (fun n => (v n : EReal)) = ((∑ n, u n * v n : ℝ) : EReal) := by
  unfold dot
  rw [coe_sum]
  exact Finset.sum_congr rfl fun n _ => (EReal.coe_mul _ _).symm

/-- The real identity: the sum of squared residuals is the expanded square. -/
theorem expand_real (t a : ι → ℝ) (c : ℝ) :
    (∑ n, t n * t n - (2 * c) * ∑ n, t n * a n) + (c * c) * ∑ n, a n * a n
      = ∑ n, (t n - c * a n) * (t n - c * a n) := by
  rw [Finset.mul_sum, Finset.mul_sum, ← Finset.sum_sub_distrib, ← Finset.sum_add_distrib]
  exact Finset.sum_congr rfl fun n _ => by ring

/-- THE LAW for one batch row: with real entries and a nonzero divisor the two evaluations agree. -/
theorem laneExpanded_eq_laneDirect (two : EReal) (htwo : two = ((2 : ℝ) : EReal)) (yp yt ya : ι → EReal)
    (hp : ∀ n, ∃ r : ℝ, yp n = (r : EReal)) (ht : ∀ n, ∃ r : ℝ, yt n = (r : EReal))
    (ha : ∀ n, ∃ r : ℝ, ya n = (r : EReal)) (hden : dot yp ya ≠ 0) :
    laneExpanded two yp yt ya = laneDirect yp yt ya := by
  choose p hp using hp
  choose t ht using ht
  choose a ha using ha
  obtain rfl : yp = fun n => (p n : EReal) := funext hp
  obtain rfl : yt = fun n => (t n : EReal) := funext ht
  obtain rfl : ya = fun n => (a n : EReal) := funext ha
  have hs2 : (∑ n, p n * a n : ℝ) ≠ 0 := by
    intro h
    apply hden
    rw [dot_coe, h]
    rfl
  have hc : scale (fun n => (p n : EReal)) (fun n => (t n : EReal)) (fun n => (a n : EReal))
      = (((∑ n, t n * p n) * (1 / ∑ n, p n * a n) : ℝ) : EReal) := by
    unfold scale
    rw [dot_coe, dot_coe, Ideal.div_coe hs2, ← EReal.coe_mul]
  unfold laneExpanded laneDirect
  rw [hc, dot_coe, dot_coe, dot_coe, htwo]
  simp only [← EReal.coe_mul, ← EReal.coe_sub, ← EReal.coe_add, ← coe_sum]
  exact congrArg _ (expand_real t a _)

/-- `A y` has real entries when the stored values and `y` do. -/
theorem applyA_real [DecidableEq ι] (vals : κ → EReal) (tg : κ → Option ι) (cl : κ → ι) (y : ι → EReal)
    (hv : ∀ e, ∃ r : ℝ, vals e = (r : EReal)) (hy : ∀ n, ∃ r : ℝ, y n = (r : EReal)) (n : ι) :
    ∃ r : ℝ, applyA vals tg cl y n = (r : EReal) := by
  choose v hv using hv
  choose w hw using hy
  refine ⟨0 + ∑ e ∈ Finset.univ.filter (fun e => tg e = some n), v e * w (cl e), ?_⟩
  unfold applyA
  rw [EReal.coe_add, coe_sum, EReal.coe_zero]
  exact congrArg _ (Finset.sum_congr rfl fun e _ => by rw [hv, hw, EReal.coe_mul])

end law

/-- THE LAW for the whole result: with real argument entries and every batch row's divisor nonzero, the accumulating
    program's result is the direct program's. -/
theorem resultExpanded_eq_resultDirect (two d : EReal) (htwo : two = ((2 : ℝ) : EReal))
    (x0 x1 : SBN.Idx → EReal) (x2 : SE.Idx → EReal) (x3 x4 : IVec SE 32)
    (h0 : ∀ i, ∃ r : ℝ, x0 i = (r : EReal)) (h1 : ∀ i, ∃ r : ℝ, x1 i = (r : EReal))
    (h2 : ∀ i, ∃ r : ℝ, x2 i = (r : EReal))
    (hden : ∀ b : Fin 128, dot (fun n => x0 (ix2 b n)) (ya x0 x2 x3 x4 b) ≠ 0) :
    resultExpanded two d x0 x1 x2 x3 x4 = resultDirect d x0 x1 x2 x3 x4 := by
  unfold resultExpanded resultDirect mean
  refine congrArg (fun s => Ideal.div (0 + s) d) (Finset.sum_congr rfl fun b _ => ?_)
  exact laneExpanded_eq_laneDirect two htwo _ _ _ (fun n => h0 _) (fun n => h1 _)
    (fun n => applyA_real _ _ _ _ (fun e => h2 _) (fun k => h0 _) n) (hden b)

end Cert.Residual

end
-- ==== Proof.Domain.lean ====
/-
  What the precondition says of the argument arrays.

  The precondition is a conjunction of four "for all entries" tests. Three say that |x| < +infinity for every entry of
  the two float matrices and of the stored values: on the extended reals that is exactly "the entry is a real number".
  The fourth says that, for every batch row, the number the reference divides by — its <yp, A yp>, spelled with the
  reference's own operations on the same arguments — is not zero. Where it is zero the reference's quotient is an
  infinity and the two programs' expansions of the square part ways; away from it the quotient is a real number.
-/
import proofs.«118962_j67894843015536_2_alg».proof.Pre_finite_inputs
import proofs.«118962_j67894843015536_2_alg».proof.Proof.Gen.ReferenceIdeal.Read
import Idealize.ShloMosaic.Lib.ReduceAll
import Idealize.ShloMosaic.Lib.ValueIdx
import Idealize.ShloMosaic.Lib.Pipeline.Value
import Idealize.ShloMosaic.PureOps.Ideal.Laws

noncomputable section

namespace Cert.Residual.Domain

open Idealize.ShloMosaic Idealize.ShloMosaic.ValueIdx

/-- A rank-0 shape has one index. -/
instance : Subsingleton Cert.Pre_finite_inputs.S_.Idx := ⟨fun _ _ => funext fun d => d.elim0⟩

/-- An extended real whose absolute value is below +infinity is a real number. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One entry's test `|x i| < +infinity`, as the precondition spells it, says the entry is real. -/
theorem entry_real {S : Shape} (x : FVec Ideal S .f32)
    (hb : Cert.Pre_finite_inputs.S_.BroadcastsInDim S (![] : Fin 0 → Fin S.rank)) (i : S.Idx)
    (e : cmpf .olt (Host.absf x)
      (broadcastInDim S ![] hb (constant (F := Ideal) Cert.Pre_finite_inputs.S_ .f32 0x7F800000#32)) i = 1#1) :
    ∃ r : ℝ, x i = (r : EReal) := by
  have hbc : broadcastInDim S ![] hb (constant (F := Ideal) Cert.Pre_finite_inputs.S_ .f32 0x7F800000#32) i
      = (⊤ : EReal) := by
    rw [broadcastInDim_apply _ hb _ i (fun a => a.elim0) (fun a => a.elim0)]
    show Ideal.ofBits .f32 0x7F800000#32 = ⊤
    simp [Ideal.ofBits, Ideal.ieee]
  refine real_of_abs_lt_top (x i) ?_
  rw [← hbc]
  exact e

section
variable [Cert.Pre_finite_inputs.Facts] [Cert.ReferenceIdeal.Facts]

open Cert.Pre_finite_inputs Cert.Pre_finite_inputs.Facts in
/-- The reference's divisor, one per batch row, as the precondition spells it: the host sum along a row of
    `yp * (A yp)`, with `A yp` the scatter-add into zero of `vals * yp[cols]` at `rows`. -/
def divisor (a0 : FVec Ideal Cert.Pre_finite_inputs.S128x262144 .f32) (a2 : FVec Ideal Cert.Pre_finite_inputs.S1835008 .f32)
    (a3 a4 : IVec Cert.Pre_finite_inputs.S1835008 32) : FVec Ideal Cert.Pre_finite_inputs.S128 .f32 :=
  Host.reduceAdd
    (mulf a0
      (Host.scatterAdd scatter_S128x262144_S1835008x1_S128x1835008_0_1_1_1
        (broadcastInDim S128x262144 ![1] bcast_S262144_S128x262144_1
          (broadcastInDim S262144 ![] bcast_S_S262144 (constant S_ .f32 0x00000000#32)))
        (broadcastInDim S1835008x1 ![0] bcast_S1835008_S1835008x1_0 a3)
        (mulf
          (broadcastInDim S128x1835008 ![0, 1] bcast_S1x1835008_S128x1835008_0_1
            (broadcastInDim S1x1835008 ![1] bcast_S1835008_S1x1835008_1 a2))
          (Host.gather gather_S128x262144_S1835008x1_S128x1835008_0_1_n_n_1_1_1281 a0
            (broadcastInDim S1835008x1 ![0] bcast_S1835008_S1835008x1_0
              (select (cmpi .slt a4 (broadcastInDim S1835008 ![] bcast_S_S1835008 (constantI S_ 32 0#32)))
                (addi a4 (broadcastInDim S1835008 ![] bcast_S_S1835008 (constantI S_ 32 262144#32))) a4))))))
    (constant S_ .f32 0x00000000#32) reducesTo_S128x262144_S128_d1 h_S_

open Cert.ReferenceIdeal.Read in
/-- It is the reference program's own divisor term: the same operations on the same operands, one written in the
    precondition and one in the reference. -/
theorem divisor_eq_reference (a0 : FVec Ideal Cert.Pre_finite_inputs.S128x262144 .f32)
    (a2 : FVec Ideal Cert.Pre_finite_inputs.S1835008 .f32) (a3 a4 : IVec Cert.Pre_finite_inputs.S1835008 32) :
    divisor a0 a2 a3 a4 = Cert.ReferenceIdeal.Read.val_main_v17 (F := Ideal) a0 a2 a3 a4 := by
  unfold divisor val_main_v17 val_main_v16 val_main_v13 val_main_v12 val_main_v11 val_main_v10 val_main_v9 val_main_v8
    val_main_v7 val_main_v6 val_main_v5 val_main_v4 val_main_v3 val_main_v2 val_main_v1 val_main_v0 val_main_c val_main_c_0
    val_main_cst val_main_cst_2
  rfl

open Cert.Pre_finite_inputs Cert.Pre_finite_inputs.Facts in
/-- THE PRECONDITION READ BACK: every entry of the three float arguments is a real number, and the reference's divisor
    is nonzero in every batch row. -/
theorem decode (a0 a1 : FVec Ideal Cert.Pre_finite_inputs.S128x262144 .f32) (a2 : FVec Ideal Cert.Pre_finite_inputs.S1835008 .f32)
    (a3 a4 : IVec Cert.Pre_finite_inputs.S1835008 32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ ∀ i, Cert.ReferenceIdeal.Read.val_main_v17 (F := Ideal) a0 a2 a3 a4 i ≠ 0 := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact entry_real a0 bcast_S_S128x262144 i (Host.reduce_andi_all _ _ _ _ ix0 h1 i)
  · exact entry_real a1 bcast_S_S128x262144 i (Host.reduce_andi_all _ _ _ _ ix0 h2 i)
  · exact entry_real a2 bcast_S_S1835008 i (Host.reduce_andi_all _ _ _ _ ix0 h3 i)
  · have e := Host.reduce_andi_all _ _ _ _ ix0 h4 i
    change cmpf .une (divisor a0 a2 a3 a4)
      (broadcastInDim S128 ![] bcast_S_S128 (constant (F := Ideal) S_ .f32 0x00000000#32)) i = 1#1 at e
    rw [divisor_eq_reference] at e
    -- from here on the divisor is an opaque row of extended reals
    generalize Cert.ReferenceIdeal.Read.val_main_v17 (F := Ideal) a0 a2 a3 a4 = D at e ⊢
    have hz : broadcastInDim S128 ![] bcast_S_S128 (constant (F := Ideal) S_ .f32 0x00000000#32) i = (0 : EReal) := by
      rw [broadcastInDim_apply _ bcast_S_S128 _ i (fun a => a.elim0) (fun a => a.elim0)]
      exact Ideal.ofBits_zero_f32
    have e' : Ideal.cmp .une (D i)
        (broadcastInDim S128 ![] bcast_S_S128 (constant (F := Ideal) S_ .f32 0x00000000#32) i) = 1#1 := e
    rw [hz] at e'
    intro hzero
    rw [hzero] at e'
    simp [Ideal.cmp] at e'

end

end Cert.Residual.Domain

end
-- ==== Proof.LibGatherCols.lean ====
/-
  A gather of COLUMNS read at an index.

  Indexing a matrix `X : [B, N]` along its second axis by an integer array, `X[:, idx]`, is a `stablehlo.gather`
  whose start indices have shape `[E, 1]` (the index vector on axis 1, one component), that one component mapped to
  operand axis 1, operand axis 1 collapsed (slice size 1 there), no batching axes; the first operand axis is kept
  whole (slice size `B`) and is the result's one offset axis, axis 0. The result has shape `[B, E]`.

  StableHLO reads every start index as a SIGNED integer and CLAMPS it so that the slice fits: on axis 1 the slice has
  size 1, so the start `idx[e, 0]` is clamped into `[0, N - 1]`. That clamped number is `GatherRows.row N hN idx e`,
  the same number a gather of rows reads. The theorem says that result element `(b, e)` is `X[b, row e]`.

  The statement takes an arbitrary record of dimension numbers and the values of its fields as hypotheses (each is
  `rfl` at a record written as a literal). The proof computes StableHLO's operand index axis by axis: on axis 0 the
  start is 0 (the start index map does not name it) and the offset coordinate is the result's first coordinate; on
  axis 1 it is the clamped start (no batching coordinate, and no offset coordinate since the axis is collapsed), read
  off the start indices at `[e, 0]` where `e` is the result's second coordinate, its one batch coordinate.
-/
import Idealize.ShloMosaic.Lib.ValueIdx
import proofs.«118962_j67894843015536_2_alg».proof.Proof.LibGatherRows

noncomputable section

namespace GatherCols

open Idealize.ShloMosaic Idealize.ShloMosaic.ValueIdx

variable {α : Type}

/-- As an operand index: result position `(b, e)` reads the operand at `(b, row e)`. -/
theorem operandIdx_cols {B N E w : Nat} (hN : 0 < N)
    (d : GatherDims ⟨2, ![B, N]⟩ ⟨2, ![E, 1]⟩ ⟨2, ![B, E]⟩)
    (hoff : d.offsetDims = [0]) (hcol : d.collapsedSliceDims = [1]) (hob : d.operandBatchingDims = [])
    (hmap : d.startIndexMap = [1]) (hiv : d.indexVectorDim = 1) (hsl : d.sliceSizes = ![B, 1])
    (idx : IVec ⟨2, ![E, 1]⟩ w) (y : (⟨2, ![B, E]⟩ : Shape).Idx) :
    d.operandIdx y idx = ix2 (y 0) (GatherRows.row N hN idx (y 1)) := by
  -- with the fields' values substituted the record is a literal, and its lists compute
  obtain ⟨od, cd, ob, sb, sm, iv, ss, wf⟩ := d
  simp only at hoff hcol hob hmap hiv hsl
  subst hoff hcol hob hmap hiv hsl
  funext a
  refine Fin.ext ?_
  match a with
  | ⟨0, _⟩ =>
    -- axis 0: not in the start index map (start 0), kept whole — the result's offset coordinate
    show GatherDims.start _ y idx 0 + GatherDims.batchCoord _ y 0 + GatherDims.offCoord _ y 0 = (y 0).val
    rw [GatherDims.batchCoord_eq_zero _ _ _ List.not_mem_nil]
    unfold GatherDims.start
    rw [dif_neg (show (0 : Fin 2) ∉ ([1] : List (Fin 2)) by decide)]
    unfold GatherDims.offCoord
    rw [dif_pos ((GatherDims.mem_sKept _ _).mpr
      ⟨(show (0 : Fin 2) ∉ ([1] : List (Fin 2)) by decide), List.not_mem_nil⟩)]
    simp only [Nat.zero_add]
    rfl
  | ⟨1, _⟩ =>
    -- axis 1: collapsed, in the start index map — the clamped start
    show GatherDims.start _ y idx 1 + GatherDims.batchCoord _ y 1 + GatherDims.offCoord _ y 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    have hmem : (1 : Fin 2) ∈ ([1] : List (Fin 2)) := List.mem_singleton.mpr rfl
    rw [dif_pos hmem]
    -- the start index is read at `[e, 0]`, `e` the result's batch coordinate
    have hsi : GatherDims.siIdx (s := ⟨2, ![B, N]⟩) (si := ⟨2, ![E, 1]⟩) (t := ⟨2, ![B, E]⟩)
        ⟨[0], [1], [], sb, [1], 1, ![B, 1], wf⟩ y
        ⟨List.idxOf (1 : Fin 2) [1], List.idxOf_lt_length_iff.2 hmem⟩ = ix2 (y 1) (0 : Fin 1) := by
      funext b; refine Fin.ext ?_
      match b with
      | ⟨0, _⟩ => rfl
      | ⟨1, _⟩ => rfl
    rw [hsi]
    rfl

/-- THE COLUMN GATHER READ AT `(b, e)`: the operand's row `b` at the column given by the start index `idx[e, 0]`,
    read signed and clamped into `[0, N - 1]` — the same number as a gather of rows reads. -/
theorem gather_cols_apply {B N E w : Nat} (hN : 0 < N)
    (d : GatherDims ⟨2, ![B, N]⟩ ⟨2, ![E, 1]⟩ ⟨2, ![B, E]⟩)
    (hoff : d.offsetDims = [0]) (hcol : d.collapsedSliceDims = [1]) (hob : d.operandBatchingDims = [])
    (hmap : d.startIndexMap = [1]) (hiv : d.indexVectorDim = 1) (hsl : d.sliceSizes = ![B, 1])
    (X : (⟨2, ![B, N]⟩ : Shape).Idx → α) (idx : IVec ⟨2, ![E, 1]⟩ w) (y : (⟨2, ![B, E]⟩ : Shape).Idx) :
    Host.gather d X idx y = X (ix2 (y 0) (GatherRows.row N hN idx (y 1))) := by
  exact congrArg X (operandIdx_cols hN d hoff hcol hob hmap hiv hsl idx y)

end GatherCols

end
-- ==== Proof.LibScatterCols.lean ====
/-
  An accumulating scatter of COLUMNS read at an entry, over the extended reals.

  `X.at[:, ids].add(U)` of a matrix of updates `U : [B, E]` into a matrix `X : [B, N]` is a `stablehlo.scatter` with
  an `add` body whose scatter indices have shape `[E, 1]` (the index vector on axis 1, one component, mapped to operand
  axis 1), operand axis 1 an inserted window axis, and the updates' axis 0 the one window axis. StableHLO reads the
  scatter index `ids[e, 0]` as a SIGNED integer and does NOT clamp it: update column `e` is added to operand column
  `ids[e, 0]` when that number names a column, and is dropped otherwise. `ScatterRows.tgt N ids e` is that column, if
  any — the same target a scatter of rows has. The theorem says that entry `(b, n)` of the result is the operand's entry
  plus the sum, over the update columns `e` whose target is `n`, of the update's entry `(b, e)`.
-/
import Idealize.ShloMosaic.PureOps.Ideal
import Idealize.ShloMosaic.PureOps.Ideal.Laws
import Idealize.ShloMosaic.Lib.ValueIdx
import proofs.«118962_j67894843015536_2_alg».proof.Proof.LibScatterRows

noncomputable section

open scoped BigOperators

namespace ScatterCols

open Idealize.ShloMosaic Idealize.ShloMosaic.ValueIdx

/-- Axis 1 of the operand is named by the scatter-dims-to-operand-dims map: the window of update index `j` starts at the
    scatter index `idx[j 1, 0]`, read signed. -/
theorem start_one {B N E w : Nat}
    (d : ScatterDims ⟨2, ![B, N]⟩ ⟨2, ![E, 1]⟩ ⟨2, ![B, E]⟩)
    (huw : d.updateWindowDims = [0]) (hiw : d.insertedWindowDims = [1]) (hsd : d.scatterDimsToOperandDims = [1])
    (hiv : d.indexVectorDim = 1) (idx : IVec ⟨2, ![E, 1]⟩ w) (j : (⟨2, ![B, E]⟩ : Shape).Idx) :
    d.start j idx 1 = (idx (ix2 (j 1) (0 : Fin 1))).toInt := by
  obtain ⟨uw, iw, sd, iv, wf⟩ := d
  simp only at huw hiw hsd hiv
  subst huw hiw hsd hiv
  unfold ScatterDims.start
  have hmem : (1 : Fin 2) ∈ ([1] : List (Fin 2)) := List.mem_singleton.mpr rfl
  rw [dif_pos hmem]
  have hsi : ScatterDims.siIdx (s := ⟨2, ![B, N]⟩) (si := ⟨2, ![E, 1]⟩) (u := ⟨2, ![B, E]⟩)
      ⟨[0], [1], [1], 1, wf⟩ j ⟨List.idxOf (1 : Fin 2) [1], List.idxOf_lt_length_iff.2 hmem⟩
        = ix2 (j 1) (0 : Fin 1) := by
    funext b; refine Fin.ext ?_
    match b with
    | ⟨0, _⟩ => rfl
    | ⟨1, _⟩ => rfl
  rw [hsi]
  rfl

/-- Axis 0 of the operand is not named by the map: every window starts at 0 there. -/
theorem start_zero {B N E w : Nat}
    (d : ScatterDims ⟨2, ![B, N]⟩ ⟨2, ![E, 1]⟩ ⟨2, ![B, E]⟩)
    (hsd : d.scatterDimsToOperandDims = [1])
    (idx : IVec ⟨2, ![E, 1]⟩ w) (j : (⟨2, ![B, E]⟩ : Shape).Idx) :
    d.start j idx 0 = 0 := by
  unfold ScatterDims.start
  rw [dif_neg (by rw [hsd]; exact (show (0 : Fin 2) ∉ ([1] : List (Fin 2)) by decide))]

/-- Axis 1 of the operand is an inserted window axis: the window coordinate there is 0. -/
theorem window_one {B N E : Nat}
    (d : ScatterDims ⟨2, ![B, N]⟩ ⟨2, ![E, 1]⟩ ⟨2, ![B, E]⟩)
    (hiw : d.insertedWindowDims = [1]) (j : (⟨2, ![B, E]⟩ : Shape).Idx) :
    d.window j 1 = 0 := by
  unfold ScatterDims.window
  rw [dif_neg (by
    rw [ScatterDims.sKept, hiw]
    exact (show (1 : Fin 2) ∉ (List.finRange 2).filter (fun a => a ∉ ([1] : List (Fin 2))) by decide))]

/-- Axis 0 of the operand is the one kept axis: the window coordinate there is the update index's coordinate on
    its one window axis, axis 0. -/
theorem window_zero {B N E : Nat}
    (d : ScatterDims ⟨2, ![B, N]⟩ ⟨2, ![E, 1]⟩ ⟨2, ![B, E]⟩)
    (huw : d.updateWindowDims = [0]) (hiw : d.insertedWindowDims = [1]) (j : (⟨2, ![B, E]⟩ : Shape).Idx) :
    d.window j 0 = (j 0).val := by
  obtain ⟨uw, iw, sd, iv, wf⟩ := d
  simp only at huw hiw
  subst huw hiw
  unfold ScatterDims.window
  rw [dif_pos (by
    exact (show (0 : Fin 2) ∈ (List.finRange 2).filter (fun a => a ∉ ([1] : List (Fin 2))) by decide))]
  rfl

/-- WHERE UPDATE ENTRY `(c, e)` LANDS: at operand entry `(p, q)` exactly when the row is kept, `c = p`, and the
    scatter index of column `e` names column `q`. On axis 1 the landing coordinate is the scatter index itself (window
    coordinate 0), in range exactly when the target is a column; on axis 0 it is `c` (start 0), always in range. -/
theorem resultIdx_cols {B N E w : Nat}
    (d : ScatterDims ⟨2, ![B, N]⟩ ⟨2, ![E, 1]⟩ ⟨2, ![B, E]⟩)
    (huw : d.updateWindowDims = [0]) (hiw : d.insertedWindowDims = [1]) (hsd : d.scatterDimsToOperandDims = [1])
    (hiv : d.indexVectorDim = 1) (idx : IVec ⟨2, ![E, 1]⟩ w) (c : Fin B) (e : Fin E) (p : Fin B) (q : Fin N) :
    d.resultIdx? (ix2 c e) idx = some (ix2 p q) ↔ c = p ∧ ScatterRows.tgt N idx e = some q := by
  have h1s : d.start (ix2 c e) idx 1 = (idx (ix2 e (0 : Fin 1))).toInt := start_one d huw hiw hsd hiv idx (ix2 c e)
  have h0s : d.start (ix2 c e) idx 0 = 0 := start_zero d hsd idx (ix2 c e)
  have h1w : d.window (ix2 c e) 1 = 0 := window_one d hiw (ix2 c e)
  have h0w : d.window (ix2 c e) 0 = c.val := window_zero d huw hiw (ix2 c e)
  have hc := c.isLt
  -- the landing index is inside the operand exactly when the scatter index names a column
  have hall : (∀ a, 0 ≤ d.start (ix2 c e) idx a + (d.window (ix2 c e) a : Int) ∧
        d.start (ix2 c e) idx a + (d.window (ix2 c e) a : Int) < ((⟨2, ![B, N]⟩ : Shape).size a : Nat))
      ↔ (0 ≤ (idx (ix2 e (0 : Fin 1))).toInt ∧ (idx (ix2 e (0 : Fin 1))).toInt < (N : Int)) := by
    constructor
    · intro h
      have h1 : 0 ≤ d.start (ix2 c e) idx 1 + (d.window (ix2 c e) 1 : Int) ∧
          d.start (ix2 c e) idx 1 + (d.window (ix2 c e) 1 : Int) < (N : Int) := h 1
      rw [h1s, h1w] at h1
      omega
    · intro h a
      match a with
      | ⟨0, _⟩ =>
        show 0 ≤ d.start (ix2 c e) idx 0 + (d.window (ix2 c e) 0 : Int) ∧
          d.start (ix2 c e) idx 0 + (d.window (ix2 c e) 0 : Int) < (B : Int)
        rw [h0s, h0w]; omega
      | ⟨1, _⟩ =>
        show 0 ≤ d.start (ix2 c e) idx 1 + (d.window (ix2 c e) 1 : Int) ∧
          d.start (ix2 c e) idx 1 + (d.window (ix2 c e) 1 : Int) < (N : Int)
        rw [h1s, h1w]; omega
  unfold ScatterDims.resultIdx? ScatterRows.tgt
  by_cases hr : 0 ≤ (idx (ix2 e (0 : Fin 1))).toInt ∧ (idx (ix2 e (0 : Fin 1))).toInt < (N : Int)
  · rw [dif_pos (hall.mpr hr), dif_pos hr]
    constructor
    · intro h
      have hf := Option.some.inj h
      have e0 : (d.start (ix2 c e) idx 0 + (d.window (ix2 c e) 0 : Int)).toNat = p.val :=
        congrArg (fun f => (f 0).val) hf
      have e1 : (d.start (ix2 c e) idx 1 + (d.window (ix2 c e) 1 : Int)).toNat = q.val :=
        congrArg (fun f => (f 1).val) hf
      rw [h0s, h0w] at e0
      rw [h1s, h1w] at e1
      exact ⟨Fin.ext (by omega), congrArg some (Fin.ext (by show (idx (ix2 e (0 : Fin 1))).toInt.toNat = q.val; omega))⟩
    · rintro ⟨rfl, ht⟩
      have hq : (idx (ix2 e (0 : Fin 1))).toInt.toNat = q.val := congrArg Fin.val (Option.some.inj ht)
      refine congrArg some ?_
      funext a
      refine Fin.ext ?_
      match a with
      | ⟨0, _⟩ =>
        show (d.start (ix2 c e) idx 0 + (d.window (ix2 c e) 0 : Int)).toNat = c.val
        rw [h0s, h0w]; omega
      | ⟨1, _⟩ =>
        show (d.start (ix2 c e) idx 1 + (d.window (ix2 c e) 1 : Int)).toNat = q.val
        rw [h1s, h1w]; omega
  · rw [dif_neg (fun h => hr (hall.mp h)), dif_neg hr]
    constructor
    · intro h; cases h
    · rintro ⟨_, h⟩; cases h

/-- THE COLUMN SCATTER-ADD READ AT `(b, n)`: the operand's entry plus the update entries `(b, e)` of the columns `e`
    whose target is `n`. -/
theorem scatterAdd_cols_apply {B N E w : Nat}
    (d : ScatterDims ⟨2, ![B, N]⟩ ⟨2, ![E, 1]⟩ ⟨2, ![B, E]⟩)
    (huw : d.updateWindowDims = [0]) (hiw : d.insertedWindowDims = [1]) (hsd : d.scatterDimsToOperandDims = [1])
    (hiv : d.indexVectorDim = 1)
    (x : FVec Ideal ⟨2, ![B, N]⟩ .f32) (idx : IVec ⟨2, ![E, 1]⟩ w) (upd : FVec Ideal ⟨2, ![B, E]⟩ .f32)
    (b : Fin B) (n : Fin N) :
    Host.scatterAdd d x idx upd (ix2 b n)
      = (x (ix2 b n) : EReal)
        + ∑ e ∈ Finset.univ.filter (fun e => ScatterRows.tgt N idx e = some n), (upd (ix2 b e) : EReal) := by
  show x (ix2 b n) + ∑ j ∈ Finset.univ.filter (fun j => d.resultIdx? j idx = some (ix2 b n)), upd j = _
  refine congrArg (fun t => x (ix2 b n) + t) ?_
  -- the update entries landing at `(b, n)` are the entries `(b, e)` of the columns `e` whose target is `n`
  refine Finset.sum_nbij' (fun j => j 1) (fun e => ix2 b e) ?_ ?_ ?_ ?_ ?_
  · intro j hj
    obtain ⟨a, e, rfl⟩ : ∃ a e, j = ix2 a e := ⟨j 0, j 1, eq_ix2 j⟩
    exact Finset.mem_filter.mpr ⟨Finset.mem_univ _,
      ((resultIdx_cols d huw hiw hsd hiv idx a e b n).mp (Finset.mem_filter.mp hj).2).2⟩
  · intro e he
    exact Finset.mem_filter.mpr ⟨Finset.mem_univ _,
      (resultIdx_cols d huw hiw hsd hiv idx b e b n).mpr ⟨rfl, (Finset.mem_filter.mp he).2⟩⟩
  · intro j hj
    obtain ⟨a, e, rfl⟩ : ∃ a e, j = ix2 a e := ⟨j 0, j 1, eq_ix2 j⟩
    obtain rfl : a = b := ((resultIdx_cols d huw hiw hsd hiv idx a e b n).mp (Finset.mem_filter.mp hj).2).1
    rfl
  · intro e _
    rfl
  · intro j hj
    obtain ⟨a, e, rfl⟩ : ∃ a e, j = ix2 a e := ⟨j 0, j 1, eq_ix2 j⟩
    obtain rfl : a = b := ((resultIdx_cols d huw hiw hsd hiv idx a e b n).mp (Finset.mem_filter.mp hj).2).1
    rfl

end ScatterCols

end
-- ==== Proof.ReferenceValue.lean ====
/-
  The direct program computes the specification's `resultDirect`.

  The direct program works in the layout `[128, 262144]` (batch row, unknown). It reads, in order:
    * the stored column numbers, a negative one counted from the end, as a column `[E, 1]`          — `colColumn`;
    * `yp[:, cols]`, a gather of columns: entry `(b, e)` is `yp (b, colOf e)`                          — `GatherCols`;
    * that times `vals e`: entry `(b, e)` is `vals e * yp (b, colOf e)`;
    * the stored row numbers as a column `[E, 1]`                                                     — `rowColumn`;
    * the scatter-add of those entries' columns into the zero matrix: entry `(b, n)` is zero plus the sum over
      the entries `e` aimed at `n` of `vals e * yp (b, colOf e)`, which is `ya b n`                   — `ScatterCols`;
    * per batch row the sums `<yt, yp>` and `<yp, ya>` (each from zero, and `0 + s = s` on the extended reals),
      their quotient `c`, the residual `yt - c * ya`, its square, the sum of the squares               — `laneDirect`;
    * the sum over the batch rows from zero, divided by the constant 128                              — `mean`.
  Each step is read at one index; nothing of full size is ever compared.
-/
import proofs.«118962_j67894843015536_2_alg».proof.Proof.Residual
import proofs.«118962_j67894843015536_2_alg».proof.Proof.Gen.ReferenceIdeal.Read
import proofs.«118962_j67894843015536_2_alg».proof.Proof.LibGatherCols
import proofs.«118962_j67894843015536_2_alg».proof.Proof.LibScatterCols

noncomputable section

open scoped BigOperators

namespace Cert.Residual.Reference

open Cert.ReferenceIdeal Cert.ReferenceIdeal.Read Idealize.ShloMosaic Idealize.ShloMosaic.ValueIdx

/-! ## A sum over a rank-1 index set is the sum over its coordinate -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The index columns -/

/-- The column numbers as the gather reads them are `colColumn`: a negative number has 262144 added. -/
theorem cols_eq (x4 : (⟨S1835008, .i32⟩ : BufTy).Contents (Elt Ideal)) :
    val_main_v5 (F := Ideal) x4 = colColumn x4 := by
  funext j
  have hj : idx_main_v5 j = ix1 (j 0) := funext fun a => Fin.ext (by match a with | ⟨0, _⟩ => rfl)
  rw [val_main_v5_apply, val_main_v4_apply, val_main_v1_apply, val_main_v3_apply, val_main_v0_apply,
    val_main_v2_apply, val_main_c_apply, val_main_c_0_apply, hj]
  rfl

/-- The row numbers as the scatter reads them are `rowColumn`. -/
theorem rows_eq (x3 : (⟨S1835008, .i32⟩ : BufTy).Contents (Elt Ideal)) :
    val_main_v11 (F := Ideal) x3 = rowColumn x3 := by
  funext j
  have hj : idx_main_v11 j = ix1 (j 0) := funext fun a => Fin.ext (by match a with | ⟨0, _⟩ => rfl)
  rw [val_main_v11_apply, hj]
  rfl

/-! ## `A yp`, entry by entry -/

/-- The scattered updates: entry `(b, e)` is `vals e * yp (b, colOf e)`. -/
theorem update_apply (x0 : (⟨S128x262144, .f32⟩ : BufTy).Contents (Elt Ideal))
    (x2 : (⟨S1835008, .f32⟩ : BufTy).Contents (Elt Ideal)) (x4 : (⟨S1835008, .i32⟩ : BufTy).Contents (Elt Ideal))
    (b : Fin 128) (e : Fin 1835008) :
    val_main_v9 (F := Ideal) x0 x2 x4 (ix2 b e) = (x2 (ix1 e) : EReal) * x0 (ix2 b (colOf x4 e)) := by
  have h8 : idx_main_v7 (idx_main_v8 (ix2 b e)) = ix1 e :=
    funext fun a => Fin.ext (by match a with | ⟨0, _⟩ => rfl)
  rw [val_main_v9_apply, val_main_v8_apply, val_main_v7_apply, h8]
  unfold val_main_v6
  rw [GatherCols.gather_cols_apply (B := 128) (N := 262144) (E := 1835008) (by norm_num) _ rfl rfl rfl rfl rfl rfl,
    cols_eq]
  rfl

/-- The scatter-add's result at `(b, n)` is `ya b n`: it starts from the zero matrix and adds the updates of the
    entries aimed at `n`. -/
theorem applied_apply (x0 : (⟨S128x262144, .f32⟩ : BufTy).Contents (Elt Ideal))
    (x2 : (⟨S1835008, .f32⟩ : BufTy).Contents (Elt Ideal)) (x3 x4 : (⟨S1835008, .i32⟩ : BufTy).Contents (Elt Ideal))
    (b : Fin 128) (n : Fin 262144) :
    val_main_v13 (F := Ideal) x0 x2 x3 x4 (ix2 b n) = ya x0 x2 x3 x4 b n := by
  have h0 : (val_main_v12 (F := Ideal) (ix2 b n) : EReal) = 0 := by
    rw [val_main_v12_apply, val_main_v10_apply, val_main_cst_apply]
    exact Ideal.ofBits_zero_f32
  unfold val_main_v13
  rw [ScatterCols.scatterAdd_cols_apply (B := 128) (N := 262144) (E := 1835008) _ rfl rfl rfl rfl, rows_eq, h0]
  unfold ya applyA tgtOf
  refine congrArg (fun t => (0 : EReal) + t) (Finset.sum_congr rfl fun e _ => ?_)
  exact update_apply x0 x2 x4 b e

/-! ## One batch row -/

/-- The divisor of the scale at batch row `b` is `<yp, ya>`. -/
theorem divisor_at (x0 : (⟨S128x262144, .f32⟩ : BufTy).Contents (Elt Ideal))
    (x2 : (⟨S1835008, .f32⟩ : BufTy).Contents (Elt Ideal)) (x3 x4 : (⟨S1835008, .i32⟩ : BufTy).Contents (Elt Ideal))
    (b : Fin 128) :
    val_main_v17 (F := Ideal) x0 x2 x3 x4 (ix1 b)
      = dot (fun n : Fin 262144 => x0 (ix2 b n)) (ya x0 x2 x3 x4 b) := by
  have hk : ∀ k : Fin 262144, idx_main_v17 (ix1 b) k = ix2 b k := fun k =>
    funext fun a => Fin.ext (by match a with | ⟨0, _⟩ => rfl | ⟨1, _⟩ => rfl)
  rw [val_main_v17_apply, val_main_cst_2_apply, Ideal.ofBits_def, Ideal.ofBits_zero_f32, zero_add]
  unfold dot
  refine Finset.sum_congr rfl fun k _ => ?_
  rw [hk, val_main_v16_apply, applied_apply]
  rfl

/-- The numerator of the scale at batch row `b` is `<yt, yp>`. -/
theorem numerator_at (x0 x1 : (⟨S128x262144, .f32⟩ : BufTy).Contents (Elt Ideal)) (b : Fin 128) :
    val_main_v15 (F := Ideal) x0 x1 (ix1 b)
      = dot (fun n : Fin 262144 => x1 (ix2 b n)) (fun n : Fin 262144 => x0 (ix2 b n)) := by
  have hk : ∀ k : Fin 262144, idx_main_v15 (ix1 b) k = ix2 b k := fun k =>
    funext fun a => Fin.ext (by match a with | ⟨0, _⟩ => rfl | ⟨1, _⟩ => rfl)
  rw [val_main_v15_apply, val_main_cst_1_apply, Ideal.ofBits_def, Ideal.ofBits_zero_f32, zero_add]
  unfold dot
  refine Finset.sum_congr rfl fun k _ => ?_
  rw [hk, val_main_v14_apply]
  rfl

/-- The quotient at batch row `b` is the scale `c`. -/
theorem scale_at (x0 x1 : (⟨S128x262144, .f32⟩ : BufTy).Contents (Elt Ideal))
    (x2 : (⟨S1835008, .f32⟩ : BufTy).Contents (Elt Ideal)) (x3 x4 : (⟨S1835008, .i32⟩ : BufTy).Contents (Elt Ideal))
    (b : Fin 128) :
    val_main_v18 (F := Ideal) x0 x1 x2 x3 x4 (ix1 b)
      = scale (fun n : Fin 262144 => x0 (ix2 b n)) (fun n : Fin 262144 => x1 (ix2 b n)) (ya x0 x2 x3 x4 b) := by
  rw [val_main_v18_apply, numerator_at, divisor_at]
  rfl

/-- The residual at `(b, n)` is `yt n - c * ya n`. -/
theorem residual_apply (x0 x1 : (⟨S128x262144, .f32⟩ : BufTy).Contents (Elt Ideal))
    (x2 : (⟨S1835008, .f32⟩ : BufTy).Contents (Elt Ideal)) (x3 x4 : (⟨S1835008, .i32⟩ : BufTy).Contents (Elt Ideal))
    (b : Fin 128) (n : Fin 262144) :
    val_main_v22 (F := Ideal) x0 x1 x2 x3 x4 (ix2 b n)
      = (x1 (ix2 b n) : EReal)
        - scale (fun n : Fin 262144 => x0 (ix2 b n)) (fun n : Fin 262144 => x1 (ix2 b n)) (ya x0 x2 x3 x4 b)
          * ya x0 x2 x3 x4 b n := by
  have h : idx_main_v19 (idx_main_v20 (ix2 b n)) = ix1 b :=
    funext fun a => Fin.ext (by match a with | ⟨0, _⟩ => rfl)
  rw [val_main_v22_apply, val_main_v21_apply, val_main_v20_apply, val_main_v19_apply, h, scale_at, applied_apply]
  rfl

/-- The energy of batch row `b` is `laneDirect`. -/
theorem lane_at (x0 x1 : (⟨S128x262144, .f32⟩ : BufTy).Contents (Elt Ideal))
    (x2 : (⟨S1835008, .f32⟩ : BufTy).Contents (Elt Ideal)) (x3 x4 : (⟨S1835008, .i32⟩ : BufTy).Contents (Elt Ideal))
    (b : Fin 128) :
    val_main_v24 (F := Ideal) x0 x1 x2 x3 x4 (ix1 b)
      = laneDirect (fun n : Fin 262144 => x0 (ix2 b n)) (fun n : Fin 262144 => x1 (ix2 b n)) (ya x0 x2 x3 x4 b) := by
  have hk : ∀ k : Fin 262144, idx_main_v24 (ix1 b) k = ix2 b k := fun k =>
    funext fun a => Fin.ext (by match a with | ⟨0, _⟩ => rfl | ⟨1, _⟩ => rfl)
  rw [val_main_v24_apply, val_main_cst_3_apply, Ideal.ofBits_def, Ideal.ofBits_zero_f32, zero_add]
  unfold laneDirect
  refine Finset.sum_congr rfl fun k _ => ?_
  rw [hk, val_main_v23_apply, residual_apply]
  rfl

/-! ## The two statements the assembly cites -/

/-- THE DIVISOR: at every batch row the direct program divides by `<yp, ya>`. -/
theorem divisor_eq (x0 : (⟨S128x262144, .f32⟩ : BufTy).Contents (Elt Ideal))
    (x2 : (⟨S1835008, .f32⟩ : BufTy).Contents (Elt Ideal)) (x3 x4 : (⟨S1835008, .i32⟩ : BufTy).Contents (Elt Ideal))
    (i : S128.Idx) :
    Cert.ReferenceIdeal.Read.val_main_v17 (F := Ideal) x0 x2 x3 x4 i
      = Cert.Residual.dot (fun n : Fin 262144 => x0 (ix2 (i 0) n)) (Cert.Residual.ya x0 x2 x3 x4 (i 0)) := by
  obtain ⟨b, rfl⟩ : ∃ b : Fin 128, i = ix1 b := ⟨i 0, eq_ix1 i⟩
  exact divisor_at x0 x2 x3 x4 b

/-- THE VALUE: the direct program's result is `resultDirect`, the mean over the batch rows of the energies, the
    divisor 128 spelt as the program spells it. -/
theorem value_eq (x0 x1 : (⟨S128x262144, .f32⟩ : BufTy).Contents (Elt Ideal))
    (x2 : (⟨S1835008, .f32⟩ : BufTy).Contents (Elt Ideal)) (x3 x4 : (⟨S1835008, .i32⟩ : BufTy).Contents (Elt Ideal)) :
    Cert.ReferenceIdeal.Read.val_main_v26 (F := Ideal) x0 x1 x2 x3 x4
      = fun _ => Cert.Residual.resultDirect (Ideal.ofBits .f32 0x43000000#32) x0 x1 x2 x3 x4 := by
  funext i
  rw [val_main_v26_apply, val_main_v25_apply, val_main_cst_4_apply, val_main_cst_5_apply, Ideal.hostDivf_def,
    Ideal.ofBits_def, Ideal.ofBits_def, Ideal.ofBits_zero_f32, sum_idx1]
  unfold resultDirect mean
  refine congrArg (fun t => Ideal.div ((0 : EReal) + t) (Ideal.ofBits .f32 0x43000000#32)) ?_
  exact Finset.sum_congr rfl fun b _ => lane_at x0 x1 x2 x3 x4 b

end Cert.Residual.Reference

end
-- ==== Proof.KernelPieces.lean ====
/-
  What one grid point leaves in the five accumulator rows and in the output row.

  The kernel keeps five rows `[1, 128]`, one per inner product (<yt,yp>, <yp,ya>, <yt,yt>, <yt,ya>, <ya,ya>), lane by
  lane. A grid point reads its three blocks of 8192 rows (of yp, yt and ya) and adds to each row the lane sums of the
  matching products over the block. The first point stores a zero row first, so it leaves the update of the zero row;
  every later point leaves the update of what the point before left. The last point also stores the output row: the
  closing formula of the five rows it has just updated. Each statement below says this for one row and one kind of
  point, for any float model.
-/
import proofs.«118962_j67894843015536_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Accumulate

open Cert.KernelIdeal Cert.KernelIdeal.Gen

variable {F : FTy → Type} [FloatOps F]
variable (c : Dev nD) (i : grid0.Coords)
  (a1 : Memref sig .tc .vmem S8192x128 .f32) (h1 : a1.IsWhole)
  (a2 : Memref sig .tc .vmem S8192x128 .f32) (h2 : a2.IsWhole)
  (a3 : Memref sig .tc .vmem S8192x128 .f32) (h3 : a3.IsWhole)
  (a4 : Memref sig .tc .vmem S1x128 .f32) (h4 : a4.IsWhole)
  (a5 : Memref sig .tc .vmem S1x128 .f32) (h5 : a5.IsWhole)
  (a6 : Memref sig .tc .vmem S1x128 .f32) (h6 : a6.IsWhole)
  (a7 : Memref sig .tc .vmem S1x128 .f32) (h7 : a7.IsWhole)
  (a8 : Memref sig .tc .vmem S1x128 .f32) (h8 : a8.IsWhole)
  (a9 : Memref sig .tc .vmem S1x128 .f32) (h9 : a9.IsWhole)
  (x0 x1 x2 : Vec F S8192x128 .f32) (xs0 xs1 xs2 xs3 xs4 : Vec F S1x128 .f32)

/-- The zero offsets of a whole-block access, however they are spelt. -/
theorem hz : (![0, 0] : Fin 2 → Nat) = fun _ => 0 := funext fun a => by fin_cases a <;> rfl

/-- At the first point the row for <yt, yp> is zeroed and then updated: it ends at the update of the zero row. -/
theorem first_s0 (hc0 : cond0_0 i) (hc1 : ¬cond0_1 i) :
    sout0_A_0 c i a1 h1 a2 h2 a3 h3 a4 h4 a5 h5 a6 h6 a7 h7 a8 h8 a9 h9 hc0 hc1 x0 x1 x2 = k0_pay12 x0 x1 (k0_pay4 (F := F)) := by
  unfold sout0_A_0
  rw [View.read_writes_eq_canon _ _ _ (scover0_A_0 c i a1 h1 a2 h2 a3 h3 a4 h4 a5 h5 a6 h6 a7 h7 a8 h8 a9 h9 hc0 hc1 x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h5.read_unread, h6.read_unread,
    h7.read_unread, h8.read_unread, h9.read_unread, View.ld_unit_zero (S := S8192x128) hz,
    View.ld_unit_zero (S := S1x128) hz]

/-- At the first point the row for <yp, ya> is zeroed and then updated: it ends at the update of the zero row. -/
theorem first_s1 (hc0 : cond0_0 i) (hc1 : ¬cond0_1 i) :
    sout0_A_1 c i a1 h1 a2 h2 a3 h3 a4 h4 a5 h5 a6 h6 a7 h7 a8 h8 a9 h9 hc0 hc1 x0 x1 x2 = k0_pay13 x0 x2 (k0_pay5 (F := F)) := by
  unfold sout0_A_1
  rw [View.read_writes_eq_canon _ _ _ (scover0_A_1 c i a1 h1 a2 h2 a3 h3 a4 h4 a5 h5 a6 h6 a7 h7 a8 h8 a9 h9 hc0 hc1 x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h5.read_unread, h6.read_unread,
    h7.read_unread, h8.read_unread, h9.read_unread, View.ld_unit_zero (S := S8192x128) hz,
    View.ld_unit_zero (S := S1x128) hz]

/-- At the first point the row for <yt, yt> is zeroed and then updated: it ends at the update of the zero row. -/
theorem first_s2 (hc0 : cond0_0 i) (hc1 : ¬cond0_1 i) :
    sout0_A_2 c i a1 h1 a2 h2 a3 h3 a4 h4 a5 h5 a6 h6 a7 h7 a8 h8 a9 h9 hc0 hc1 x0 x1 x2 = k0_pay14 x1 (k0_pay6 (F := F)) := by
  unfold sout0_A_2
  rw [View.read_writes_eq_canon _ _ _ (scover0_A_2 c i a1 h1 a2 h2 a3 h3 a4 h4 a5 h5 a6 h6 a7 h7 a8 h8 a9 h9 hc0 hc1 x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h5.read_unread, h6.read_unread,
    h7.read_unread, h8.read_unread, h9.read_unread, View.ld_unit_zero (S := S8192x128) hz,
    View.ld_unit_zero (S := S1x128) hz]

/-- At the first point the row for <yt, ya> is zeroed and then updated: it ends at the update of the zero row. -/
theorem first_s3 (hc0 : cond0_0 i) (hc1 : ¬cond0_1 i) :
    sout0_A_3 c i a1 h1 a2 h2 a3 h3 a4 h4 a5 h5 a6 h6 a7 h7 a8 h8 a9 h9 hc0 hc1 x0 x1 x2 = k0_pay1 (k0_pay10 x1) (k0_pay11 x2) (k0_pay7 (F := F)) := by
  unfold sout0_A_3
  rw [View.read_writes_eq_canon _ _ _ (scover0_A_3 c i a1 h1 a2 h2 a3 h3 a4 h4 a5 h5 a6 h6 a7 h7 a8 h8 a9 h9 hc0 hc1 x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h5.read_unread, h6.read_unread,
    h7.read_unread, h8.read_unread, h9.read_unread, View.ld_unit_zero (S := S8192x128) hz,
    View.ld_unit_zero (S := S1x128) hz]

/-- At the first point the row for <ya, ya> is zeroed and then updated: it ends at the update of the zero row. -/
theorem first_s4 (hc0 : cond0_0 i) (hc1 : ¬cond0_1 i) :
    sout0_A_4 c i a1 h1 a2 h2 a3 h3 a4 h4 a5 h5 a6 h6 a7 h7 a8 h8 a9 h9 hc0 hc1 x0 x1 x2 = k0_pay2 (k0_pay11 x2) (k0_pay8 (F := F)) := by
  unfold sout0_A_4
  rw [View.read_writes_eq_canon _ _ _ (scover0_A_4 c i a1 h1 a2 h2 a3 h3 a4 h4 a5 h5 a6 h6 a7 h7 a8 h8 a9 h9 hc0 hc1 x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h5.read_unread, h6.read_unread,
    h7.read_unread, h8.read_unread, h9.read_unread, View.ld_unit_zero (S := S8192x128) hz,
    View.ld_unit_zero (S := S1x128) hz]

/-- At a middle point the row for <yt, yp> ends at the update of what the point before left in it. -/
theorem mid_s0 (hc0 : ¬cond0_0 i) (hc1 : ¬cond0_1 i) :
    sout0_B_0 c i a1 h1 a2 h2 a3 h3 a4 h4 a5 h5 a6 h6 a7 h7 a8 h8 a9 h9 hc0 hc1 x0 x1 x2 xs0 xs1 xs2 xs3 xs4 = k0_pay12 x0 x1 xs0 := by
  unfold sout0_B_0
  rw [View.read_writes_eq_canon _ _ _ (scover0_B_0 c i a1 h1 a2 h2 a3 h3 a4 h4 a5 h5 a6 h6 a7 h7 a8 h8 a9 h9 hc0 hc1 x0 x1 x2 xs0 xs1 xs2 xs3 xs4)]
  unfold kernelRun0_B
  dsimp only
  sl_unfold_words
  rw [View.canon_unit_zero hz]
  simp only [View.readAt_eq_ld, h1.read_unread, h2.read_unread, h3.read_unread, h5.read_unread, h6.read_unread,
    h7.read_unread, h8.read_unread, h9.read_unread, View.ld_unit_zero (S := S8192x128) hz,
    View.ld_unit_zero (S := S1x128) hz]

/-- At a middle point the row for <yp, ya> ends at the update of what the point before left in it. -/
theorem mid_s1 (hc0 : ¬cond0_0 i) (hc1 : ¬cond0_1 i) :
    sout0_B_1 c i a1 h1 a2 h2 a3 h3 a4 h4 a5 h5 a6 h6 a7 h7 a8 h8 a9 h9 hc0 hc1 x0 x1 x2 xs0 xs1 xs2 xs3 xs4 = k0_pay13 x0 x2 xs1 := by
  unfold sout0_B_1
  rw [View.read_writes_eq_canon _ _ _ (scover0_B_1 c i a1 h1 a2 h2 a3 h3 a4 h4 a5 h5 a6 h6 a7 h7 a8 h8 a9 h9 hc0 hc1 x0 x1 x2 xs0 xs1 xs2 xs3 xs4)]
  unfold kernelRun0_B
  dsimp only
  sl_unfold_words
  rw [View.canon_unit_zero hz]
  simp only [View.readAt_eq_ld, h1.read_unread, h2.read_unread, h3.read_unread, h5.read_unread, h6.read_unread,
    h7.read_unread, h8.read_unread, h9.read_unread, View.ld_unit_zero (S := S8192x128) hz,
    View.ld_unit_zero (S := S1x128) hz]

/-- At a middle point the row for <yt, yt> ends at the update of what the point before left in it. -/
theorem mid_s2 (hc0 : ¬cond0_0 i) (hc1 : ¬cond0_1 i) :
    sout0_B_2 c i a1 h1 a2 h2 a3 h3 a4 h4 a5 h5 a6 h6 a7 h7 a8 h8 a9 h9 hc0 hc1 x0 x1 x2 xs0 xs1 xs2 xs3 xs4 = k0_pay14 x1 xs2 := by
  unfold sout0_B_2
  rw [View.read_writes_eq_canon _ _ _ (scover0_B_2 c i a1 h1 a2 h2 a3 h3 a4 h4 a5 h5 a6 h6 a7 h7 a8 h8 a9 h9 hc0 hc1 x0 x1 x2 xs0 xs1 xs2 xs3 xs4)]
  unfold kernelRun0_B
  dsimp only
  sl_unfold_words
  rw [View.canon_unit_zero hz]
  simp only [View.readAt_eq_ld, h1.read_unread, h2.read_unread, h3.read_unread, h5.read_unread, h6.read_unread,
    h7.read_unread, h8.read_unread, h9.read_unread, View.ld_unit_zero (S := S8192x128) hz,
    View.ld_unit_zero (S := S1x128) hz]

/-- At a middle point the row for <yt, ya> ends at the update of what the point before left in it. -/
theorem mid_s3 (hc0 : ¬cond0_0 i) (hc1 : ¬cond0_1 i) :
    sout0_B_3 c i a1 h1 a2 h2 a3 h3 a4 h4 a5 h5 a6 h6 a7 h7 a8 h8 a9 h9 hc0 hc1 x0 x1 x2 xs0 xs1 xs2 xs3 xs4 = k0_pay1 (k0_pay10 x1) (k0_pay11 x2) xs3 := by
  unfold sout0_B_3
  rw [View.read_writes_eq_canon _ _ _ (scover0_B_3 c i a1 h1 a2 h2 a3 h3 a4 h4 a5 h5 a6 h6 a7 h7 a8 h8 a9 h9 hc0 hc1 x0 x1 x2 xs0 xs1 xs2 xs3 xs4)]
  unfold kernelRun0_B
  dsimp only
  sl_unfold_words
  rw [View.canon_unit_zero hz]
  simp only [View.readAt_eq_ld, h1.read_unread, h2.read_unread, h3.read_unread, h5.read_unread, h6.read_unread,
    h7.read_unread, h8.read_unread, h9.read_unread, View.ld_unit_zero (S := S8192x128) hz,
    View.ld_unit_zero (S := S1x128) hz]

/-- At a middle point the row for <ya, ya> ends at the update of what the point before left in it. -/
theorem mid_s4 (hc0 : ¬cond0_0 i) (hc1 : ¬cond0_1 i) :
    sout0_B_4 c i a1 h1 a2 h2 a3 h3 a4 h4 a5 h5 a6 h6 a7 h7 a8 h8 a9 h9 hc0 hc1 x0 x1 x2 xs0 xs1 xs2 xs3 xs4 = k0_pay2 (k0_pay11 x2) xs4 := by
  unfold sout0_B_4
  rw [View.read_writes_eq_canon _ _ _ (scover0_B_4 c i a1 h1 a2 h2 a3 h3 a4 h4 a5 h5 a6 h6 a7 h7 a8 h8 a9 h9 hc0 hc1 x0 x1 x2 xs0 xs1 xs2 xs3 xs4)]
  unfold kernelRun0_B
  dsimp only
  sl_unfold_words
  rw [View.canon_unit_zero hz]
  simp only [View.readAt_eq_ld, h1.read_unread, h2.read_unread, h3.read_unread, h5.read_unread, h6.read_unread,
    h7.read_unread, h8.read_unread, h9.read_unread, View.ld_unit_zero (S := S8192x128) hz,
    View.ld_unit_zero (S := S1x128) hz]

/-- At the last point the row for <yt, yp> ends at the update of what the point before left in it. -/
theorem last_s0 (hc0 : ¬cond0_0 i) (hc1 : cond0_1 i) :
    sout0_C_0 c i a1 h1 a2 h2 a3 h3 a4 h4 a5 h5 a6 h6 a7 h7 a8 h8 a9 h9 hc0 hc1 x0 x1 x2 xs0 xs1 xs2 xs3 xs4 = k0_pay12 x0 x1 xs0 := by
  unfold sout0_C_0
  rw [View.read_writes_eq_canon _ _ _ (scover0_C_0 c i a1 h1 a2 h2 a3 h3 a4 h4 a5 h5 a6 h6 a7 h7 a8 h8 a9 h9 hc0 hc1 x0 x1 x2 xs0 xs1 xs2 xs3 xs4)]
  unfold kernelRun0_C
  dsimp only
  sl_unfold_words
  rw [View.canon_unit_zero hz]
  simp only [View.readAt_eq_ld, h1.read_unread, h2.read_unread, h3.read_unread, h5.read_unread, h6.read_unread,
    h7.read_unread, h8.read_unread, h9.read_unread, View.ld_unit_zero (S := S8192x128) hz,
    View.ld_unit_zero (S := S1x128) hz]

/-- At the last point the row for <yp, ya> ends at the update of what the point before left in it. -/
theorem last_s1 (hc0 : ¬cond0_0 i) (hc1 : cond0_1 i) :
    sout0_C_1 c i a1 h1 a2 h2 a3 h3 a4 h4 a5 h5 a6 h6 a7 h7 a8 h8 a9 h9 hc0 hc1 x0 x1 x2 xs0 xs1 xs2 xs3 xs4 = k0_pay13 x0 x2 xs1 := by
  unfold sout0_C_1
  rw [View.read_writes_eq_canon _ _ _ (scover0_C_1 c i a1 h1 a2 h2 a3 h3 a4 h4 a5 h5 a6 h6 a7 h7 a8 h8 a9 h9 hc0 hc1 x0 x1 x2 xs0 xs1 xs2 xs3 xs4)]
  unfold kernelRun0_C
  dsimp only
  sl_unfold_words
  rw [View.canon_unit_zero hz]
  simp only [View.readAt_eq_ld, h1.read_unread, h2.read_unread, h3.read_unread, h5.read_unread, h6.read_unread,
    h7.read_unread, h8.read_unread, h9.read_unread, View.ld_unit_zero (S := S8192x128) hz,
    View.ld_unit_zero (S := S1x128) hz]

/-- At the last point the row for <yt, yt> ends at the update of what the point before left in it. -/
theorem last_s2 (hc0 : ¬cond0_0 i) (hc1 : cond0_1 i) :
    sout0_C_2 c i a1 h1 a2 h2 a3 h3 a4 h4 a5 h5 a6 h6 a7 h7 a8 h8 a9 h9 hc0 hc1 x0 x1 x2 xs0 xs1 xs2 xs3 xs4 = k0_pay14 x1 xs2 := by
  unfold sout0_C_2
  rw [View.read_writes_eq_canon _ _ _ (scover0_C_2 c i a1 h1 a2 h2 a3 h3 a4 h4 a5 h5 a6 h6 a7 h7 a8 h8 a9 h9 hc0 hc1 x0 x1 x2 xs0 xs1 xs2 xs3 xs4)]
  unfold kernelRun0_C
  dsimp only
  sl_unfold_words
  rw [View.canon_unit_zero hz]
  simp only [View.readAt_eq_ld, h1.read_unread, h2.read_unread, h3.read_unread, h5.read_unread, h6.read_unread,
    h7.read_unread, h8.read_unread, h9.read_unread, View.ld_unit_zero (S := S8192x128) hz,
    View.ld_unit_zero (S := S1x128) hz]

/-- At the last point the row for <yt, ya> ends at the update of what the point before left in it. -/
theorem last_s3 (hc0 : ¬cond0_0 i) (hc1 : cond0_1 i) :
    sout0_C_3 c i a1 h1 a2 h2 a3 h3 a4 h4 a5 h5 a6 h6 a7 h7 a8 h8 a9 h9 hc0 hc1 x0 x1 x2 xs0 xs1 xs2 xs3 xs4 = k0_pay1 (k0_pay10 x1) (k0_pay11 x2) xs3 := by
  unfold sout0_C_3
  rw [View.read_writes_eq_canon _ _ _ (scover0_C_3 c i a1 h1 a2 h2 a3 h3 a4 h4 a5 h5 a6 h6 a7 h7 a8 h8 a9 h9 hc0 hc1 x0 x1 x2 xs0 xs1 xs2 xs3 xs4)]
  unfold kernelRun0_C
  dsimp only
  sl_unfold_words
  rw [View.canon_unit_zero hz]
  simp only [View.readAt_eq_ld, h1.read_unread, h2.read_unread, h3.read_unread, h5.read_unread, h6.read_unread,
    h7.read_unread, h8.read_unread, h9.read_unread, View.ld_unit_zero (S := S8192x128) hz,
    View.ld_unit_zero (S := S1x128) hz]

/-- At the last point the row for <ya, ya> ends at the update of what the point before left in it. -/
theorem last_s4 (hc0 : ¬cond0_0 i) (hc1 : cond0_1 i) :
    sout0_C_4 c i a1 h1 a2 h2 a3 h3 a4 h4 a5 h5 a6 h6 a7 h7 a8 h8 a9 h9 hc0 hc1 x0 x1 x2 xs0 xs1 xs2 xs3 xs4 = k0_pay2 (k0_pay11 x2) xs4 := by
  unfold sout0_C_4
  rw [View.read_writes_eq_canon _ _ _ (scover0_C_4 c i a1 h1 a2 h2 a3 h3 a4 h4 a5 h5 a6 h6 a7 h7 a8 h8 a9 h9 hc0 hc1 x0 x1 x2 xs0 xs1 xs2 xs3 xs4)]
  unfold kernelRun0_C
  dsimp only
  sl_unfold_words
  rw [View.canon_unit_zero hz]
  simp only [View.readAt_eq_ld, h1.read_unread, h2.read_unread, h3.read_unread, h5.read_unread, h6.read_unread,
    h7.read_unread, h8.read_unread, h9.read_unread, View.ld_unit_zero (S := S8192x128) hz,
    View.ld_unit_zero (S := S1x128) hz]

/-- At the last point the output row is the closing formula of the five rows as that point's updates leave them. -/
theorem last_out (hc0 : ¬cond0_0 i) (hc1 : cond0_1 i) :
    out0_C_3 c i a1 h1 a2 h2 a3 h3 a4 h4 a5 h5 a6 h6 a7 h7 a8 h8 a9 h9 hc0 hc1 x0 x1 x2 xs0 xs1 xs2 xs3 xs4
      = k0_pay3 (k0_pay12 x0 x1 xs0) (k0_pay13 x0 x2 xs1) (k0_pay14 x1 xs2)
          (k0_pay1 (k0_pay10 x1) (k0_pay11 x2) xs3) (k0_pay2 (k0_pay11 x2) xs4) := by
  unfold out0_C_3
  rw [View.read_writes_eq_canon _ _ _ (cover0_C_3 c i a1 h1 a2 h2 a3 h3 a4 h4 a5 h5 a6 h6 a7 h7 a8 h8 a9 h9 hc0 hc1 x0 x1 x2 xs0 xs1 xs2 xs3 xs4)]
  unfold kernelRun0_C
  dsimp only
  sl_unfold_words
  rw [View.canon_unit_zero hz]
  simp only [View.readCov_unit_zero (S := S1x128) _ hz, View.readAt_eq_ld, h1.read_unread, h2.read_unread,
    h3.read_unread, h5.read_unread, h6.read_unread, h7.read_unread, h8.read_unread, h9.read_unread,
    View.ld_unit_zero (S := S8192x128) hz, View.ld_unit_zero (S := S1x128) hz]

end Cert.KernelIdeal.Accumulate

end
-- ==== Proof.LibColumnSum.lean ====
/-
  The sum down the rows of a block, one lane at a time.

  Program-free (the library only). Over the extended reals a `vector.multi_reduction <add>` of an `[R, C]` block
  along its row axis (`jnp.sum(…, axis=0)`), accumulated from the zero word, has at lane `q` the plain sum
  `∑ n, y (n, q)` over the block's rows: no order or grouping is left in it.
-/
import Idealize.ShloMosaic.PureOps.Ideal.Laws
import Idealize.ShloMosaic.Lib.ValueIdx

noncomputable section

open scoped BigOperators

namespace ColumnSum

open Idealize.ShloMosaic Idealize.ShloMosaic.ValueIdx

/-- The sums down the rows of an `[R, C]` block, as a vector `[C]`: entry `q` is the sum of column `q`. -/
theorem rowsSum_apply {R C : ℕ} (y : FVec Ideal ⟨2, ![R, C]⟩ .f32)
    (h0 : (⟨2, ![R, C]⟩ : Shape).Reduces [0] ⟨1, ![C]⟩) (hφ : FKind.Formats .f32)
    (hacc : (0x00000000#32 : BitVec 32) = FKind.add.neutral .f32 hφ) (q : Fin C) :
    multiReduction .add [0] ⟨1, ![C]⟩ y 0x00000000#32 h0 hφ hacc (ix1 q) = ∑ n : Fin R, y (ix2 n q) := by
  refine (Ideal.multiReduction_add_single y _ h0 hφ hacc (ix1 q)).trans ?_
  refine Finset.sum_congr rfl fun n _ => congrArg y ?_
  funext a
  match a with
  | ⟨0, _⟩ => exact Fin.ext rfl
  | ⟨1, _⟩ => exact Fin.ext rfl

end ColumnSum

end
-- ==== Proof.LibLayout.lean ====
/-
  A flat array of `N` numbers read as one row `[1, N]`: the row's entry `q` is the array's entry `q`.
-/
import Idealize.ShloMosaic.Lib.ValueIdx
import Idealize.ShloMosaic.Lib.Pipeline.Value

noncomputable section

open Idealize.ShloMosaic Idealize.ShloMosaic.ValueIdx

namespace RowOfFlat

variable {N : ℕ} {α : Type}

theorem apply (x : (⟨1, ![N]⟩ : Shape).Idx → α) (h : (⟨1, ![N]⟩ : Shape).ShapeCasts (⟨2, ![1, N]⟩ : Shape)) (q : Fin N) :
    shapeCast (⟨2, ![1, N]⟩ : Shape) x h (ix2 (0 : Fin 1) q) = x (ix1 q) :=
  (shapeCast_addUnit_apply ![N] x h (ix2 (0 : Fin 1) q)).trans
    (congrArg x (funext fun a => by match a with | ⟨0, _⟩ => rfl))

/-- As a whole array: reading the row's entries back gives the flat array. -/
theorem eq (x : (⟨1, ![N]⟩ : Shape).Idx → α) (h : (⟨1, ![N]⟩ : Shape).ShapeCasts (⟨2, ![1, N]⟩ : Shape)) :
    (fun j : (⟨1, ![N]⟩ : Shape).Idx => shapeCast (⟨2, ![1, N]⟩ : Shape) x h (ix2 (0 : Fin 1) (j 0))) = x := by
  funext j
  exact (apply x h (j 0)).trans (congrArg x (eq_ix1 j).symm)

end RowOfFlat

end
-- ==== Proof.LibGridSum.lean ====
import Mathlib.Algebra.BigOperators.Fin
import Mathlib.Data.Fintype.BigOperators
import Mathlib.Logic.Equiv.Fin.Basic

/-!
# Sums over a row axis cut into equal blocks, and sums accumulated block by block

Program-free (Mathlib only). In any commutative additive monoid:

* `GridSum.sum_split_rows`: a sum over `N = T * R` rows is the sum over the `T` blocks of the sum over the `R` rows
  of each block, row `r` of block `t` being row `R * t + r`;
* `GridSum.sum_castLE_succ`: the sum of the first `n + 2` blocks is the sum of the first `n + 1` plus block `n + 1`
  (the step of an accumulator carried from one block to the next);
* `GridSum.sum_castLE_all`: the sum of the first `T` blocks is the sum of all blocks.
-/

namespace GridSum

variable {M : Type*} [AddCommMonoid M]

/-- Row `r` of block `t`, among `N = T * R` rows. -/
def row {N : ℕ} (T R : ℕ) (h : T * R = N) (t : Fin T) (r : Fin R) : Fin N :=
  ⟨R * t.val + r.val, by
    have h1 : R * t.val + r.val < R * t.val + R := Nat.add_lt_add_left r.isLt _
    have h2 : R * t.val + R ≤ R * T := by
      rw [← Nat.mul_succ]; exact Nat.mul_le_mul_left _ t.isLt
    rw [← h, Nat.mul_comm T R]; exact Nat.lt_of_lt_of_le h1 h2⟩

theorem row_val {N : ℕ} (T R : ℕ) (h : T * R = N) (t : Fin T) (r : Fin R) :
    (row T R h t r).val = R * t.val + r.val := rfl

/-- A sum over `T * R` rows, block by block. -/
theorem sum_split_rows {N : ℕ} (T R : ℕ) (h : T * R = N) (g : Fin N → M) :
    ∑ p, g p = ∑ t : Fin T, ∑ r : Fin R, g (row T R h t r) := by
  subst h
  rw [← Equiv.sum_comp finProdFinEquiv g, Fintype.sum_prod_type]
  refine Finset.sum_congr rfl fun t _ => Finset.sum_congr rfl fun r _ => congrArg g (Fin.ext ?_)
  simp only [finProdFinEquiv_apply_val, row_val]
  omega

/-- The first `n + 2` blocks are the first `n + 1` and block `n + 1`. -/
theorem sum_castLE_succ {T : ℕ} (B : Fin T → M) (n : ℕ) (h : n + 2 ≤ T) :
    ∑ t : Fin (n + 2), B (Fin.castLE h t)
      = ∑ t : Fin (n + 1), B (Fin.castLE (Nat.le_of_succ_le h) t) + B ⟨n + 1, h⟩ := by
  rw [Fin.sum_univ_castSucc]
  rfl

/-- The first block alone. -/
theorem sum_castLE_one {T : ℕ} (B : Fin T → M) (h : 0 + 1 ≤ T) :
    ∑ t : Fin (0 + 1), B (Fin.castLE h t) = B ⟨0, h⟩ := by
  rw [Fin.sum_univ_succ]
  simp
  rfl

/-- All `T` blocks. -/
theorem sum_castLE_all {T : ℕ} (B : Fin T → M) (h : T ≤ T) :
    ∑ t : Fin T, B (Fin.castLE h t) = ∑ t : Fin T, B t :=
  Finset.sum_congr rfl fun t _ => congrArg B (Fin.ext rfl)

end GridSum
-- ==== Proof.KernelTotals.lean ====
/-
  What the region leaves in its output array.

  Over the 32 grid points each of the five accumulator rows gains, lane by lane, the sum over the point's 8192 rows of
  the matching product (yt yp, yp ya, yt yt, yt ya, ya ya), starting from zero at the first point. Block `t` of an
  array is its rows `8192 t … 8192 t + 8191`, and a sum over 262144 = 32 * 8192 rows is the sum over the blocks of
  the sums over each block's rows; so after the last point row `j` holds, at lane `q`, the WHOLE inner product of
  the two matching columns `q` over all 262144 rows. The last point then stores the closing formula
  `s3 - (2 c) s4 + (c c) s5`, `c = s1 / s2`, of the five rows into the output row, which is written back once and is
  the whole output array. Everything is over the extended reals: sums are plain sums, `0 + x = x`, and no order or
  grouping of a sum is left to account for.
-/
import proofs.«118962_j67894843015536_2_alg».proof.Proof.KernelPieces
import proofs.«118962_j67894843015536_2_alg».proof.Proof.Residual
import proofs.«118962_j67894843015536_2_alg».proof.Proof.LibColumnSum
import proofs.«118962_j67894843015536_2_alg».proof.Proof.LibLayout
import proofs.«118962_j67894843015536_2_alg».proof.Proof.LibGridSum

noncomputable section

open scoped BigOperators
open Idealize.ShloMosaic Idealize.ShloMosaic.TcCoe Idealize.SL.Sem
open Idealize.ShloMosaic.Pipeline (Dat)

namespace Cert.KernelIdeal.Accumulate

open Cert.KernelIdeal Cert.KernelIdeal.Gen Idealize.ShloMosaic.ValueIdx

/-! ## The arithmetic of one point, lane by lane -/

/-- Adding to a row the lane sums of a product of two blocks: lane `q` gains the sum over the block's rows. -/
theorem laneUpdate_apply (u v : FVec Ideal S8192x128 .f32) (s : FVec Ideal S1x128 .f32)
    (h0 : S8192x128.Reduces [0] S128) (hφ : FKind.Formats .f32)
    (hacc : (0x00000000#32 : BitVec 32) = FKind.add.neutral .f32 hφ) (hc : S128.ShapeCasts S1x128) (q : Fin 128) :
    addf s (shapeCast S1x128 (multiReduction .add [0] S128 (mulf u v) 0x00000000#32 h0 hφ hacc) hc) (ix2 (0 : Fin 1) q)
      = s (ix2 (0 : Fin 1) q) + ∑ n : Fin 8192, u (ix2 n q) * v (ix2 n q) := by
  refine (addf_apply _ _ _).trans ?_
  refine congrArg (fun z => s (ix2 (0 : Fin 1) q) + z) ?_
  refine (RowOfFlat.apply _ hc q).trans ?_
  exact ColumnSum.rowsSum_apply (mulf u v) h0 hφ hacc q

/-- The update of the row for <yt, yp>. -/
theorem pay12_apply (x0 x1 : Vec Ideal S8192x128 .f32) (s : Vec Ideal S1x128 .f32) (q : Fin 128) :
    k0_pay12 (F := Ideal) x0 x1 s (ix2 (0 : Fin 1) q)
      = s (ix2 (0 : Fin 1) q) + ∑ n : Fin 8192, x1 (ix2 n q) * x0 (ix2 n q) := by
  unfold k0_pay12 k0_pay10 k0_pay9
  simp only [shapeCast_self]
  exact laneUpdate_apply x1 x0 s _ _ _ _ q

/-- The update of the row for <yp, ya>. -/
theorem pay13_apply (x0 x2 : Vec Ideal S8192x128 .f32) (s : Vec Ideal S1x128 .f32) (q : Fin 128) :
    k0_pay13 (F := Ideal) x0 x2 s (ix2 (0 : Fin 1) q)
      = s (ix2 (0 : Fin 1) q) + ∑ n : Fin 8192, x0 (ix2 n q) * x2 (ix2 n q) := by
  unfold k0_pay13 k0_pay11 k0_pay9
  simp only [shapeCast_self]
  exact laneUpdate_apply x0 x2 s _ _ _ _ q

/-- The update of the row for <yt, yt>. -/
theorem pay14_apply (x1 : Vec Ideal S8192x128 .f32) (s : Vec Ideal S1x128 .f32) (q : Fin 128) :
    k0_pay14 (F := Ideal) x1 s (ix2 (0 : Fin 1) q)
      = s (ix2 (0 : Fin 1) q) + ∑ n : Fin 8192, x1 (ix2 n q) * x1 (ix2 n q) := by
  unfold k0_pay14 k0_pay10
  simp only [shapeCast_self]
  exact laneUpdate_apply x1 x1 s _ _ _ _ q

/-- The update of the row for <yt, ya>. -/
theorem pay1_apply (x1 x2 : Vec Ideal S8192x128 .f32) (s : Vec Ideal S1x128 .f32) (q : Fin 128) :
    k0_pay1 (F := Ideal) (k0_pay10 x1) (k0_pay11 x2) s (ix2 (0 : Fin 1) q)
      = s (ix2 (0 : Fin 1) q) + ∑ n : Fin 8192, x1 (ix2 n q) * x2 (ix2 n q) := by
  unfold k0_pay1 k0_pay10 k0_pay11
  simp only [shapeCast_self]
  exact laneUpdate_apply x1 x2 s _ _ _ _ q

/-- The update of the row for <ya, ya>. -/
theorem pay2_apply (x2 : Vec Ideal S8192x128 .f32) (s : Vec Ideal S1x128 .f32) (q : Fin 128) :
    k0_pay2 (F := Ideal) (k0_pay11 x2) s (ix2 (0 : Fin 1) q)
      = s (ix2 (0 : Fin 1) q) + ∑ n : Fin 8192, x2 (ix2 n q) * x2 (ix2 n q) := by
  unfold k0_pay2 k0_pay11
  simp only [shapeCast_self]
  exact laneUpdate_apply x2 x2 s _ _ _ _ q

/-- The rows stored at the first point are zero. -/
theorem pay4_apply (j : S1x128.Idx) : k0_pay4 (F := Ideal) j = 0 := by
  unfold k0_pay4; simp only [shapeCast_self]; exact Ideal.ofBits_zero_f32
theorem pay5_apply (j : S1x128.Idx) : k0_pay5 (F := Ideal) j = 0 := by
  unfold k0_pay5; simp only [shapeCast_self]; exact Ideal.ofBits_zero_f32
theorem pay6_apply (j : S1x128.Idx) : k0_pay6 (F := Ideal) j = 0 := by
  unfold k0_pay6; simp only [shapeCast_self]; exact Ideal.ofBits_zero_f32
theorem pay7_apply (j : S1x128.Idx) : k0_pay7 (F := Ideal) j = 0 := by
  unfold k0_pay7; simp only [shapeCast_self]; exact Ideal.ofBits_zero_f32
theorem pay8_apply (j : S1x128.Idx) : k0_pay8 (F := Ideal) j = 0 := by
  unfold k0_pay8; simp only [shapeCast_self]; exact Ideal.ofBits_zero_f32

/-- The closing formula at a lane: with `c = s1 / s2`, it is `(s3 - (2 c) s4) + (c c) s5`. -/
theorem pay3_apply (s1 s2 s3 s4 s5 : Vec Ideal S1x128 .f32) (j : S1x128.Idx) :
    k0_pay3 (F := Ideal) s1 s2 s3 s4 s5 j
      = (s3 j - (Ideal.ofBits .f32 0x40000000#32 * Ideal.div (s1 j) (s2 j)) * s4 j)
          + (Ideal.div (s1 j) (s2 j) * Ideal.div (s1 j) (s2 j)) * s5 j := rfl

/-! ## The blocks a point reads -/

variable (m : (ℓ : Loc nD τ sig) → Buf (Elt Ideal) ℓ) (c : Dev nD)

theorem N32 : cfg0.N = 32 := N_0

/-- A point number below 32 is a point of the grid. -/
theorem lt32 {n : ℕ} (h : n < 32) : n < cfg0.N := lt_of_lt_of_eq h N32.symm

/-- The blocks of yp, yt and ya at point `t`. -/
def bP (t : Fin cfg0.N) : Vec Ideal S8192x128 .f32 := iblk m c 0 t
def bT (t : Fin cfg0.N) : Vec Ideal S8192x128 .f32 := iblk m c 1 t
def bA (t : Fin cfg0.N) : Vec Ideal S8192x128 .f32 := iblk m c 2 t

/-- Where the three input windows stand at point `t`: block `t` of the rows, the one block of the lanes. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `r` of block `t` among the 262144 rows. -/
def rowOf (t : Fin cfg0.N) (r : Fin 8192) : Fin 262144 :=
  GridSum.row 32 8192 (by norm_num) ⟨t.val, lt_of_lt_of_eq t.isLt N32⟩ r

theorem rowOf_val (t : Fin cfg0.N) (r : Fin 8192) : (rowOf t r).val = 8192 * t.val + r.val := rfl

/-- Entry `(r, q)` of window 0's block at point `t` is entry `(8192 t + r, q)` of the array it stages, whatever
    the array holds. -/
theorem read0 (f : S262144x128.Idx → Ideal .f32) (t : Fin cfg0.N) (r : Fin 8192) (q : Fin 128) :
    ((cfg0.win 0).blk t).view.read (Elt Ideal) f (ix2 r q) = f (ix2 (rowOf t r) q) := by
  obtain ⟨e0, e1, -⟩ := idx_facts t
  show f (((cfg0.win 0).blk t).view.emb (ix2 r q)) = _
  refine congrArg f ?_
  funext a; apply Fin.ext
  match a with
  | ⟨0, _⟩ => show win0_0.index t (0 : Fin 2) * 8192 + 1 * r.val = 8192 * t.val + r.val; rw [e0]; omega
  | ⟨1, _⟩ => show win0_0.index t (1 : Fin 2) * 128 + 1 * q.val = q.val; rw [e1]; omega

theorem bP_apply (t : Fin cfg0.N) (r : Fin 8192) (q : Fin 128) :
    bP m c t (ix2 r q) = V m c main_v0 (ix2 (rowOf t r) q) :=
  read0 (V m c main_v0) t r q

/-- Entry `(r, q)` of window 1's block at point `t` is entry `(8192 t + r, q)` of the array it stages, whatever
    the array holds. -/
theorem read1 (f : S262144x128.Idx → Ideal .f32) (t : Fin cfg0.N) (r : Fin 8192) (q : Fin 128) :
    ((cfg0.win 1).blk t).view.read (Elt Ideal) f (ix2 r q) = f (ix2 (rowOf t r) q) := by
  obtain ⟨-, -, e0, e1, -⟩ := idx_facts t
  show f (((cfg0.win 1).blk t).view.emb (ix2 r q)) = _
  refine congrArg f ?_
  funext a; apply Fin.ext
  match a with
  | ⟨0, _⟩ => show win0_1.index t (0 : Fin 2) * 8192 + 1 * r.val = 8192 * t.val + r.val; rw [e0]; omega
  | ⟨1, _⟩ => show win0_1.index t (1 : Fin 2) * 128 + 1 * q.val = q.val; rw [e1]; omega

theorem bT_apply (t : Fin cfg0.N) (r : Fin 8192) (q : Fin 128) :
    bT m c t (ix2 r q) = V m c main_v1 (ix2 (rowOf t r) q) :=
  read1 (V m c main_v1) t r q

/-- Entry `(r, q)` of window 2's block at point `t` is entry `(8192 t + r, q)` of the array it stages, whatever
    the array holds. -/
theorem read2 (f : S262144x128.Idx → Ideal .f32) (t : Fin cfg0.N) (r : Fin 8192) (q : Fin 128) :
    ((cfg0.win 2).blk t).view.read (Elt Ideal) f (ix2 r q) = f (ix2 (rowOf t r) q) := by
  obtain ⟨-, -, -, -, e0, e1⟩ := idx_facts t
  show f (((cfg0.win 2).blk t).view.emb (ix2 r q)) = _
  refine congrArg f ?_
  funext a; apply Fin.ext
  match a with
  | ⟨0, _⟩ => show win0_2.index t (0 : Fin 2) * 8192 + 1 * r.val = 8192 * t.val + r.val; rw [e0]; omega
  | ⟨1, _⟩ => show win0_2.index t (1 : Fin 2) * 128 + 1 * q.val = q.val; rw [e1]; omega

theorem bA_apply (t : Fin cfg0.N) (r : Fin 8192) (q : Fin 128) :
    bA m c t (ix2 r q) = V m c main_v14 (ix2 (rowOf t r) q) :=
  read2 (V m c main_v14) t r q
/-! ## The five rows after each point -/

/-- After the first point each row is the update of the zero row by that point's blocks. -/
theorem rows_first (t : Fin cfg0.N) (h0 : t.val % 32 = 0) (h1 : ¬t.val % 32 = 31) :
    (outsAt0 m c t.val t.isLt).2
      = (k0_pay12 (bP m c t) (bT m c t) (k0_pay4 (F := Ideal)),
        k0_pay13 (bP m c t) (bA m c t) (k0_pay5 (F := Ideal)),
        k0_pay14 (bT m c t) (k0_pay6 (F := Ideal)),
        k0_pay1 (k0_pay10 (bT m c t)) (k0_pay11 (bA m c t)) (k0_pay7 (F := Ideal)),
        k0_pay2 (k0_pay11 (bA m c t)) (k0_pay8 (F := Ideal))) := by
  refine (congrArg Prod.snd (outsAt0_A m c t h0 h1)).trans ?_
  exact congrArg₂ Prod.mk (first_s0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) ((hcond0_0 t).mpr h0) (fun h => h1 ((hcond0_1 t).mp h)))
      (congrArg₂ Prod.mk (first_s1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) ((hcond0_0 t).mpr h0) (fun h => h1 ((hcond0_1 t).mp h)))
      (congrArg₂ Prod.mk (first_s2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) ((hcond0_0 t).mpr h0) (fun h => h1 ((hcond0_1 t).mp h)))
      (congrArg₂ Prod.mk (first_s3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) ((hcond0_0 t).mpr h0) (fun h => h1 ((hcond0_1 t).mp h)))
        (first_s4 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) ((hcond0_0 t).mpr h0) (fun h => h1 ((hcond0_1 t).mp h))))))

/-- After any later point each row is the update, by that point's blocks, of what the point before left. -/
theorem rows_next (t : Fin cfg0.N) (h0 : ¬t.val % 32 = 0) :
    (outsAt0 m c t.val t.isLt).2
      = (k0_pay12 (bP m c t) (bT m c t) (outsAt0 m c (t.val - 1) (Nat.lt_of_le_of_lt (Nat.sub_le _ _) t.isLt)).2.1,
        k0_pay13 (bP m c t) (bA m c t) (outsAt0 m c (t.val - 1) (Nat.lt_of_le_of_lt (Nat.sub_le _ _) t.isLt)).2.2.1,
        k0_pay14 (bT m c t) (outsAt0 m c (t.val - 1) (Nat.lt_of_le_of_lt (Nat.sub_le _ _) t.isLt)).2.2.2.1,
        k0_pay1 (k0_pay10 (bT m c t)) (k0_pay11 (bA m c t)) (outsAt0 m c (t.val - 1) (Nat.lt_of_le_of_lt (Nat.sub_le _ _) t.isLt)).2.2.2.2.1,
        k0_pay2 (k0_pay11 (bA m c t)) (outsAt0 m c (t.val - 1) (Nat.lt_of_le_of_lt (Nat.sub_le _ _) t.isLt)).2.2.2.2.2) := by
  by_cases h1 : t.val % 32 = 31
  · refine (congrArg Prod.snd (outsAt0_C m c t h0 h1)).trans ?_
    exact congrArg₂ Prod.mk (last_s0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1))
      (congrArg₂ Prod.mk (last_s1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1))
      (congrArg₂ Prod.mk (last_s2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1))
      (congrArg₂ Prod.mk (last_s3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1))
        (last_s4 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)))))
  · refine (congrArg Prod.snd (outsAt0_B m c t h0 h1)).trans ?_
    exact congrArg₂ Prod.mk (mid_s0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) (fun h => h1 ((hcond0_1 t).mp h)))
      (congrArg₂ Prod.mk (mid_s1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) (fun h => h1 ((hcond0_1 t).mp h)))
      (congrArg₂ Prod.mk (mid_s2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) (fun h => h1 ((hcond0_1 t).mp h)))
      (congrArg₂ Prod.mk (mid_s3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) (fun h => h1 ((hcond0_1 t).mp h)))
        (mid_s4 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) (fun h => h1 ((hcond0_1 t).mp h))))))

/-- After the last point the output row is the closing formula of the five rows as they stand then. -/
theorem out_last (t : Fin cfg0.N) (h0 : ¬t.val % 32 = 0) (h1 : t.val % 32 = 31) :
    (outsAt0 m c t.val t.isLt).1
      = k0_pay3 (outsAt0 m c t.val t.isLt).2.1 (outsAt0 m c t.val t.isLt).2.2.1 (outsAt0 m c t.val t.isLt).2.2.2.1
          (outsAt0 m c t.val t.isLt).2.2.2.2.1 (outsAt0 m c t.val t.isLt).2.2.2.2.2 := by
  rw [rows_next m c t h0]
  refine (congrArg Prod.fst (outsAt0_C m c t h0 h1)).trans ?_
  exact last_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h1)

/-! ## A row carried from block to block is a sum over the blocks -/

/-- A quantity that starts at `0 + B 0` and gains `B (n + 1)` at step `n + 1` is, after step `n`, the sum of `B`
    over the steps so far. -/
theorem carried_sum (s : (n : ℕ) → n < 32 → EReal) (B : Fin 32 → EReal)
    (h0 : s 0 (by norm_num) = 0 + B ⟨0, by norm_num⟩)
    (hs : ∀ (n : ℕ) (h : n + 1 < 32), s (n + 1) h = s n (Nat.lt_of_succ_lt h) + B ⟨n + 1, h⟩) :
    ∀ (n : ℕ) (h : n < 32), s n h = ∑ t : Fin (n + 1), B (Fin.castLE h t)
  | 0, h => (h0.trans (zero_add _)).trans (GridSum.sum_castLE_one B h).symm
  | n + 1, h => (hs n h).trans
      ((congrArg (fun z => z + B ⟨n + 1, h⟩) (carried_sum s B h0 hs n (Nat.lt_of_succ_lt h))).trans
        (GridSum.sum_castLE_succ B n h).symm)

/-- What block `t` of the rows contributes to the inner product of two vectors over the 262144 rows. -/
def blockDot (u v : Fin 262144 → EReal) (t : Fin 32) : EReal :=
  ∑ r : Fin 8192, u (GridSum.row 32 8192 (by norm_num) t r) * v (GridSum.row 32 8192 (by norm_num) t r)

/-- The 32 blocks' contributions add up to the whole inner product. -/
theorem sum_blockDot (u v : Fin 262144 → EReal) : ∑ t : Fin 32, blockDot u v t = Cert.Residual.dot u v :=
  (GridSum.sum_split_rows 32 8192 (by norm_num) (fun n => u n * v n)).symm

/-- Lane `q` of yp, yt and ya as the region finds them, as vectors over the 262144 rows. -/
def colP (q : Fin 128) : Fin 262144 → EReal := fun n => V m c main_v0 (ix2 n q)
def colT (q : Fin 128) : Fin 262144 → EReal := fun n => V m c main_v1 (ix2 n q)
def colA (q : Fin 128) : Fin 262144 → EReal := fun n => V m c main_v14 (ix2 n q)

/-- The lane sums a point adds to the row for <yt, yp> are its block's contribution to that inner product. -/
theorem blockSum_TP (t : Fin cfg0.N) (q : Fin 128) :
    ∑ r : Fin 8192, bT m c t (ix2 r q) * bP m c t (ix2 r q)
      = blockDot (colT m c q) (colP m c q) ⟨t.val, lt_of_lt_of_eq t.isLt N32⟩ :=
  Finset.sum_congr rfl fun r _ => congrArg₂ (fun x y : EReal => x * y) (bT_apply m c t r q) (bP_apply m c t r q)

/-- The lane sums a point adds to the row for <yp, ya> are its block's contribution to that inner product. -/
theorem blockSum_PA (t : Fin cfg0.N) (q : Fin 128) :
    ∑ r : Fin 8192, bP m c t (ix2 r q) * bA m c t (ix2 r q)
      = blockDot (colP m c q) (colA m c q) ⟨t.val, lt_of_lt_of_eq t.isLt N32⟩ :=
  Finset.sum_congr rfl fun r _ => congrArg₂ (fun x y : EReal => x * y) (bP_apply m c t r q) (bA_apply m c t r q)

/-- The lane sums a point adds to the row for <yt, yt> are its block's contribution to that inner product. -/
theorem blockSum_TT (t : Fin cfg0.N) (q : Fin 128) :
    ∑ r : Fin 8192, bT m c t (ix2 r q) * bT m c t (ix2 r q)
      = blockDot (colT m c q) (colT m c q) ⟨t.val, lt_of_lt_of_eq t.isLt N32⟩ :=
  Finset.sum_congr rfl fun r _ => congrArg₂ (fun x y : EReal => x * y) (bT_apply m c t r q) (bT_apply m c t r q)

/-- The lane sums a point adds to the row for <yt, ya> are its block's contribution to that inner product. -/
theorem blockSum_TA (t : Fin cfg0.N) (q : Fin 128) :
    ∑ r : Fin 8192, bT m c t (ix2 r q) * bA m c t (ix2 r q)
      = blockDot (colT m c q) (colA m c q) ⟨t.val, lt_of_lt_of_eq t.isLt N32⟩ :=
  Finset.sum_congr rfl fun r _ => congrArg₂ (fun x y : EReal => x * y) (bT_apply m c t r q) (bA_apply m c t r q)

/-- The lane sums a point adds to the row for <ya, ya> are its block's contribution to that inner product. -/
theorem blockSum_AA (t : Fin cfg0.N) (q : Fin 128) :
    ∑ r : Fin 8192, bA m c t (ix2 r q) * bA m c t (ix2 r q)
      = blockDot (colA m c q) (colA m c q) ⟨t.val, lt_of_lt_of_eq t.isLt N32⟩ :=
  Finset.sum_congr rfl fun r _ => congrArg₂ (fun x y : EReal => x * y) (bA_apply m c t r q) (bA_apply m c t r q)

/-! ## Each row after point `n` is the sum of the first `n + 1` blocks' contributions -/

/-- The row for <yt, yp>, lane by lane. -/
theorem acc0 (q : Fin 128) (n : ℕ) (h : n < 32) :
    (outsAt0 m c n (lt32 h)).2.1 (ix2 (0 : Fin 1) q)
      = ∑ t : Fin (n + 1), blockDot (colT m c q) (colP m c q) (Fin.castLE h t) :=
  carried_sum (fun n h => (outsAt0 m c n (lt32 h)).2.1 (ix2 (0 : Fin 1) q)) (blockDot (colT m c q) (colP m c q))
    (by
      have e := congrArg (fun p => p.1 (ix2 (0 : Fin 1) q))
        (rows_first m c ⟨0, lt32 (by norm_num)⟩ (Nat.zero_mod _) (by show ¬0 % 32 = 31; norm_num))
      refine e.trans ?_
      refine (pay12_apply (bP m c ⟨0, lt32 (by norm_num)⟩) (bT m c ⟨0, lt32 (by norm_num)⟩) _ q).trans ?_
      exact congrArg₂ (fun x y : EReal => x + y) (pay4_apply _) (blockSum_TP m c ⟨0, lt32 (by norm_num)⟩ q))
    (fun n h => by
      have e := congrArg (fun p => p.1 (ix2 (0 : Fin 1) q))
        (rows_next m c ⟨n + 1, lt32 h⟩ (by show ¬(n + 1) % 32 = 0; omega))
      refine e.trans ?_
      refine (pay12_apply (bP m c ⟨n + 1, lt32 h⟩) (bT m c ⟨n + 1, lt32 h⟩) _ q).trans ?_
      exact congrArg₂ (fun x y : EReal => x + y) rfl (blockSum_TP m c ⟨n + 1, lt32 h⟩ q))
    n h

/-- After the last point it is the whole inner product. -/
theorem total0 (q : Fin 128) :
    (outsAt0 m c 31 (lt32 (by norm_num))).2.1 (ix2 (0 : Fin 1) q)
      = Cert.Residual.dot (colT m c q) (colP m c q) :=
  (acc0 m c q 31 (by norm_num)).trans
    ((GridSum.sum_castLE_all (blockDot (colT m c q) (colP m c q)) (le_refl 32)).trans (sum_blockDot _ _))

/-- The row for <yp, ya>, lane by lane. -/
theorem acc1 (q : Fin 128) (n : ℕ) (h : n < 32) :
    (outsAt0 m c n (lt32 h)).2.2.1 (ix2 (0 : Fin 1) q)
      = ∑ t : Fin (n + 1), blockDot (colP m c q) (colA m c q) (Fin.castLE h t) :=
  carried_sum (fun n h => (outsAt0 m c n (lt32 h)).2.2.1 (ix2 (0 : Fin 1) q)) (blockDot (colP m c q) (colA m c q))
    (by
      have e := congrArg (fun p => p.2.1 (ix2 (0 : Fin 1) q))
        (rows_first m c ⟨0, lt32 (by norm_num)⟩ (Nat.zero_mod _) (by show ¬0 % 32 = 31; norm_num))
      refine e.trans ?_
      refine (pay13_apply (bP m c ⟨0, lt32 (by norm_num)⟩) (bA m c ⟨0, lt32 (by norm_num)⟩) _ q).trans ?_
      exact congrArg₂ (fun x y : EReal => x + y) (pay5_apply _) (blockSum_PA m c ⟨0, lt32 (by norm_num)⟩ q))
    (fun n h => by
      have e := congrArg (fun p => p.2.1 (ix2 (0 : Fin 1) q))
        (rows_next m c ⟨n + 1, lt32 h⟩ (by show ¬(n + 1) % 32 = 0; omega))
      refine e.trans ?_
      refine (pay13_apply (bP m c ⟨n + 1, lt32 h⟩) (bA m c ⟨n + 1, lt32 h⟩) _ q).trans ?_
      exact congrArg₂ (fun x y : EReal => x + y) rfl (blockSum_PA m c ⟨n + 1, lt32 h⟩ q))
    n h

/-- After the last point it is the whole inner product. -/
theorem total1 (q : Fin 128) :
    (outsAt0 m c 31 (lt32 (by norm_num))).2.2.1 (ix2 (0 : Fin 1) q)
      = Cert.Residual.dot (colP m c q) (colA m c q) :=
  (acc1 m c q 31 (by norm_num)).trans
    ((GridSum.sum_castLE_all (blockDot (colP m c q) (colA m c q)) (le_refl 32)).trans (sum_blockDot _ _))

/-- The row for <yt, yt>, lane by lane. -/
theorem acc2 (q : Fin 128) (n : ℕ) (h : n < 32) :
    (outsAt0 m c n (lt32 h)).2.2.2.1 (ix2 (0 : Fin 1) q)
      = ∑ t : Fin (n + 1), blockDot (colT m c q) (colT m c q) (Fin.castLE h t) :=
  carried_sum (fun n h => (outsAt0 m c n (lt32 h)).2.2.2.1 (ix2 (0 : Fin 1) q)) (blockDot (colT m c q) (colT m c q))
    (by
      have e := congrArg (fun p => p.2.2.1 (ix2 (0 : Fin 1) q))
        (rows_first m c ⟨0, lt32 (by norm_num)⟩ (Nat.zero_mod _) (by show ¬0 % 32 = 31; norm_num))
      refine e.trans ?_
      refine (pay14_apply (bT m c ⟨0, lt32 (by norm_num)⟩) _ q).trans ?_
      exact congrArg₂ (fun x y : EReal => x + y) (pay6_apply _) (blockSum_TT m c ⟨0, lt32 (by norm_num)⟩ q))
    (fun n h => by
      have e := congrArg (fun p => p.2.2.1 (ix2 (0 : Fin 1) q))
        (rows_next m c ⟨n + 1, lt32 h⟩ (by show ¬(n + 1) % 32 = 0; omega))
      refine e.trans ?_
      refine (pay14_apply (bT m c ⟨n + 1, lt32 h⟩) _ q).trans ?_
      exact congrArg₂ (fun x y : EReal => x + y) rfl (blockSum_TT m c ⟨n + 1, lt32 h⟩ q))
    n h

/-- After the last point it is the whole inner product. -/
theorem total2 (q : Fin 128) :
    (outsAt0 m c 31 (lt32 (by norm_num))).2.2.2.1 (ix2 (0 : Fin 1) q)
      = Cert.Residual.dot (colT m c q) (colT m c q) :=
  (acc2 m c q 31 (by norm_num)).trans
    ((GridSum.sum_castLE_all (blockDot (colT m c q) (colT m c q)) (le_refl 32)).trans (sum_blockDot _ _))

/-- The row for <yt, ya>, lane by lane. -/
theorem acc3 (q : Fin 128) (n : ℕ) (h : n < 32) :
    (outsAt0 m c n (lt32 h)).2.2.2.2.1 (ix2 (0 : Fin 1) q)
      = ∑ t : Fin (n + 1), blockDot (colT m c q) (colA m c q) (Fin.castLE h t) :=
  carried_sum (fun n h => (outsAt0 m c n (lt32 h)).2.2.2.2.1 (ix2 (0 : Fin 1) q)) (blockDot (colT m c q) (colA m c q))
    (by
      have e := congrArg (fun p => p.2.2.2.1 (ix2 (0 : Fin 1) q))
        (rows_first m c ⟨0, lt32 (by norm_num)⟩ (Nat.zero_mod _) (by show ¬0 % 32 = 31; norm_num))
      refine e.trans ?_
      refine (pay1_apply (bT m c ⟨0, lt32 (by norm_num)⟩) (bA m c ⟨0, lt32 (by norm_num)⟩) _ q).trans ?_
      exact congrArg₂ (fun x y : EReal => x + y) (pay7_apply _) (blockSum_TA m c ⟨0, lt32 (by norm_num)⟩ q))
    (fun n h => by
      have e := congrArg (fun p => p.2.2.2.1 (ix2 (0 : Fin 1) q))
        (rows_next m c ⟨n + 1, lt32 h⟩ (by show ¬(n + 1) % 32 = 0; omega))
      refine e.trans ?_
      refine (pay1_apply (bT m c ⟨n + 1, lt32 h⟩) (bA m c ⟨n + 1, lt32 h⟩) _ q).trans ?_
      exact congrArg₂ (fun x y : EReal => x + y) rfl (blockSum_TA m c ⟨n + 1, lt32 h⟩ q))
    n h

/-- After the last point it is the whole inner product. -/
theorem total3 (q : Fin 128) :
    (outsAt0 m c 31 (lt32 (by norm_num))).2.2.2.2.1 (ix2 (0 : Fin 1) q)
      = Cert.Residual.dot (colT m c q) (colA m c q) :=
  (acc3 m c q 31 (by norm_num)).trans
    ((GridSum.sum_castLE_all (blockDot (colT m c q) (colA m c q)) (le_refl 32)).trans (sum_blockDot _ _))

/-- The row for <ya, ya>, lane by lane. -/
theorem acc4 (q : Fin 128) (n : ℕ) (h : n < 32) :
    (outsAt0 m c n (lt32 h)).2.2.2.2.2 (ix2 (0 : Fin 1) q)
      = ∑ t : Fin (n + 1), blockDot (colA m c q) (colA m c q) (Fin.castLE h t) :=
  carried_sum (fun n h => (outsAt0 m c n (lt32 h)).2.2.2.2.2 (ix2 (0 : Fin 1) q)) (blockDot (colA m c q) (colA m c q))
    (by
      have e := congrArg (fun p => p.2.2.2.2 (ix2 (0 : Fin 1) q))
        (rows_first m c ⟨0, lt32 (by norm_num)⟩ (Nat.zero_mod _) (by show ¬0 % 32 = 31; norm_num))
      refine e.trans ?_
      refine (pay2_apply (bA m c ⟨0, lt32 (by norm_num)⟩) _ q).trans ?_
      exact congrArg₂ (fun x y : EReal => x + y) (pay8_apply _) (blockSum_AA m c ⟨0, lt32 (by norm_num)⟩ q))
    (fun n h => by
      have e := congrArg (fun p => p.2.2.2.2 (ix2 (0 : Fin 1) q))
        (rows_next m c ⟨n + 1, lt32 h⟩ (by show ¬(n + 1) % 32 = 0; omega))
      refine e.trans ?_
      refine (pay2_apply (bA m c ⟨n + 1, lt32 h⟩) _ q).trans ?_
      exact congrArg₂ (fun x y : EReal => x + y) rfl (blockSum_AA m c ⟨n + 1, lt32 h⟩ q))
    n h

/-- After the last point it is the whole inner product. -/
theorem total4 (q : Fin 128) :
    (outsAt0 m c 31 (lt32 (by norm_num))).2.2.2.2.2 (ix2 (0 : Fin 1) q)
      = Cert.Residual.dot (colA m c q) (colA m c q) :=
  (acc4 m c q 31 (by norm_num)).trans
    ((GridSum.sum_castLE_all (blockDot (colA m c q) (colA m c q)) (le_refl 32)).trans (sum_blockDot _ _))

/-! ## The output row, and the array it is written to -/

/-- The expanded square of the five whole inner products at lane `q`. -/
def lane (q : Fin 128) : EReal :=
  Cert.Residual.laneExpanded (Ideal.ofBits .f32 0x40000000#32) (colP m c q) (colT m c q) (colA m c q)

/-- The closing formula depends only on the five numbers it is given. -/
theorem closing_congr {two a1 a2 a3 a4 a5 b1 b2 b3 b4 b5 : EReal} (h1 : a1 = b1) (h2 : a2 = b2) (h3 : a3 = b3)
    (h4 : a4 = b4) (h5 : a5 = b5) :
    (a3 - (two * Ideal.div a1 a2) * a4) + (Ideal.div a1 a2 * Ideal.div a1 a2) * a5
      = (b3 - (two * Ideal.div b1 b2) * b4) + (Ideal.div b1 b2 * Ideal.div b1 b2) * b5 := by
  rw [h1, h2, h3, h4, h5]

/-- The last point of the grid. -/
def tLast : Fin cfg0.N := ⟨31, lt32 (by norm_num)⟩

/-- After the last point the output row holds, at lane `q`, the expanded square of the whole inner products. -/
theorem out_total (q : Fin 128) : (outsAt0 m c 31 (lt32 (by norm_num))).1 (ix2 (0 : Fin 1) q) = lane m c q := by
  have e := congrFun (out_last m c tLast (by show ¬31 % 32 = 0; norm_num) (by show 31 % 32 = 31; norm_num))
    (ix2 (0 : Fin 1) q)
  refine e.trans ?_
  refine (pay3_apply _ _ _ _ _ _).trans ?_
  exact closing_congr (total0 m c q) (total1 m c q) (total2 m c q) (total3 m c q) (total4 m c q)

/-- The output row after the last point, as a whole. -/
theorem out_row : (outsAt0 m c 31 (lt32 (by norm_num))).1 = fun j : S1x128.Idx => lane m c (j 1) := by
  funext j
  obtain ⟨p, q, rfl⟩ : ∃ (p : Fin 1) (q : Fin 128), j = ix2 p q := ⟨j 0, j 1, eq_ix2 j⟩
  obtain rfl : p = 0 := Subsingleton.elim _ _
  exact out_total m c q

/-- The one write-back, at the last point, writes that row: the output array is one block. -/
theorem flushed_eq (t : Fin cfg0.N) (hf : (cfg0.win 3).flush t = true) :
    (dats m 0 c).flushed 3 t
      = ((cfg0.win 3).blk t).view.read (Elt Ideal) (fun j : S1x128.Idx => lane m c (j 1)) := by
  have hN : cfg0.N = 32 := N32
  have h31 : t.val = 31 := by have := (flush0_3 t).mp hf; have := t.isLt; omega
  obtain rfl : t = tLast := Fin.ext h31
  show (cfg0.win 3).cut (grid0.coords tLast) ((dats m 0 c).after 3 tLast) = _
  rw [after0_3]
  show (cfg0.win 3).cut (grid0.coords tLast) (outsAt0 m c 31 (lt32 (by norm_num))).1 = _
  rw [out_row]
  have hz' : (fun a => win0_3.index tLast a * main_v15.ty.shape.size a) = fun _ => 0 :=
    funext fun a => by fin_cases a <;> decide
  exact (Memref.read_access_unit_zero (Elt Ideal) main_v15 hz' (fun a => by rw [congrFun hz' a]; simp)
    (fun j : S1x128.Idx => lane m c (j 1))).symm

/-- The region's output array ends holding, at lane `q`, the expanded square of the five whole inner products of
    lane `q` of yp, yt and ya over all 262144 rows. -/
theorem final3 :
    (Gen.dats (F := Ideal) m 0 c).arrAt 3 cfg0.N
      = fun j => Cert.Residual.laneExpanded (Ideal.ofBits .f32 0x40000000#32)
          (fun n : Fin 262144 => Gen.V (F := Ideal) m c main_v0 (ix2 n (j 1)))
          (fun n : Fin 262144 => Gen.V (F := Ideal) m c main_v1 (ix2 n (j 1)))
          (fun n : Fin 262144 => Gen.V (F := Ideal) m c main_v14 (ix2 n (j 1))) :=
  (dats m 0 c).arrAt_eq_of_cover 3 (fun j : S1x128.Idx => lane m c (j 1)) (flushed_eq m c) fun i =>
    ⟨tLast, (flush0_3 tLast).mpr rfl, by
      show i ∈ ((View.whole main_v15).slice (win0_3.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win0_3.index tLast 0 * win0_3.size 0 ≤ (i 0 : Nat)
          ∧ (i 0 : Nat) < win0_3.index tLast 0 * win0_3.size 0 + win0_3.xsize (grid0.coords tLast) 0
        rw [show win0_3.index tLast 0 * win0_3.size 0 = 0 from by decide +kernel,
          show win0_3.xsize (grid0.coords tLast) 0 = 1 from by decide +kernel]
        omega
      | ⟨1, _⟩ =>
        show win0_3.index tLast 1 * win0_3.size 1 ≤ (i 1 : Nat)
          ∧ (i 1 : Nat) < win0_3.index tLast 1 * win0_3.size 1 + win0_3.xsize (grid0.coords tLast) 1
        rw [show win0_3.index tLast 1 * win0_3.size 1 = 0 from by decide +kernel,
          show win0_3.xsize (grid0.coords tLast) 1 = 128 from by decide +kernel]
        omega⟩

end Cert.KernelIdeal.Accumulate

end
-- ==== Proof.KernelArrays.lean ====
/-
  What the three arrays the accumulation region reads hold, as functions of the program's arguments.

  Before the region the program transposes the prediction `yp` and the truth `yt` from [128, 262144] to [262144, 128],
  and forms `ya = A yp` in that layout: the stored column numbers, a negative one counted from the end, broadcast to a
  column of start indices; the rows of the transposed prediction gathered at that column; each gathered row scaled by
  its entry's value; and the scaled rows scatter-added, into the zero matrix, at the column of stored row numbers.
  Read at row `n`, lane `b`: the transposed arrays are the arguments at `(b, n)`, and the scatter is the sum, over the
  stored entries aimed at `n`, of the entry's value times the prediction of batch row `b` at the entry's column —
  the shared specification's `ya`.
-/
import proofs.«118962_j67894843015536_2_alg».proof.Proof.Gen.KernelIdeal.Frame.Runs
import proofs.«118962_j67894843015536_2_alg».proof.Proof.Residual
import Idealize.ShloMosaic.Lib.ValueLayout
import Idealize.ShloMosaic.Lib.Pipeline.Value

noncomputable section

open scoped BigOperators

namespace Cert.KernelIdeal.Host

open Idealize.ShloMosaic Idealize.ShloMosaic.TcCoe Idealize.SL.Sem
open Cert.KernelIdeal Cert.KernelIdeal.Gen Idealize.ShloMosaic.ValueIdx

/-! ## The operations before the region, as functions of the arguments -/

/-- The column `[E, 1]` of start indices the gather reads: the stored column numbers, a negative one plus 262144. -/
def startColumn (x4 : IVec S1835008 32) : IVec S1835008x1 32 :=
  broadcastInDim S1835008x1 ![0] bcast_S1835008_S1835008x1_0
    (select (cmpi .slt x4 (broadcastInDim S1835008 ![] bcast_S_S1835008 (constantI S_ 32 0#32)))
      (addi x4 (broadcastInDim S1835008 ![] bcast_S_S1835008 (constantI S_ 32 262144#32))) x4)

/-- The scaled gathered rows `[E, 128]`: entry `e`'s value times the transposed prediction's row at `e`'s start index. -/
def scaledRows (x0 : FVec Ideal S128x262144 .f32) (x2 : FVec Ideal S1835008 .f32) (x4 : IVec S1835008 32) :
    FVec Ideal S1835008x128 .f32 :=
  mulf
    (broadcastInDim S1835008x128 ![0, 1] bcast_S1835008x1_S1835008x128_0_1
      (broadcastInDim S1835008x1 ![0] bcast_S1835008_S1835008x1_0 x2))
    (Host.gather gather_S262144x128_S1835008x1_S1835008x128_1_0_n_n_0_1_1128
      (transpose S262144x128 [1, 0] x0 transposes_S128x262144_S262144x128_1_0) (startColumn x4))

/-- `A yp` in `[262144, 128]` layout as the program computes it: the scaled rows scatter-added into the zero matrix at
    the column of stored row numbers. -/
def yaHost (x0 : FVec Ideal S128x262144 .f32) (x2 : FVec Ideal S1835008 .f32) (x3 x4 : IVec S1835008 32) :
    FVec Ideal S262144x128 .f32 :=
  Host.scatterAdd scatter_S262144x128_S1835008x1_S1835008x128_1_0_0_1
    (broadcastInDim S262144x128 ![] bcast_S_S262144x128 (constant (F := Ideal) S_ .f32 0x00000000#32))
    (broadcastInDim S1835008x1 ![0] bcast_S1835008_S1835008x1_0 x3)
    (scaledRows x0 x2 x4)

/-! ## Read at an index -/

/-- A flat array broadcast to a column `[E, 1]` reads, at `(e, 0)`, the array at `e`. -/
theorem column_apply {α : Type} (x : S1835008.Idx → α) (j : S1835008x1.Idx) :
    broadcastInDim S1835008x1 ![0] bcast_S1835008_S1835008x1_0 x j = x (ix1 (j 0)) :=
  broadcastInDim_apply _ _ x j (ix1 (j 0)) fun a => match a with | ⟨0, _⟩ => rfl

/-- The column of stored row numbers is the specification's. -/
theorem rowColumn_eq (x3 : IVec S1835008 32) :
    broadcastInDim S1835008x1 ![0] bcast_S1835008_S1835008x1_0 x3 = Cert.Residual.rowColumn x3 :=
  funext fun j => column_apply x3 j

/-- The column of start indices is the specification's. -/
theorem startColumn_eq (x4 : IVec S1835008 32) : startColumn x4 = Cert.Residual.colColumn x4 :=
  funext fun j => (column_apply _ j).trans rfl

/-- The scaled rows at `(e, b)`: entry `e`'s value times the prediction of batch row `b` at `e`'s column. -/
theorem scaledRows_apply (x0 : FVec Ideal S128x262144 .f32) (x2 : FVec Ideal S1835008 .f32) (x4 : IVec S1835008 32)
    (e : Fin 1835008) (b : Fin 128) :
    scaledRows x0 x2 x4 (ix2 e b) = x2 (ix1 e) * x0 (ix2 b (Cert.Residual.colOf x4 e)) := by
  unfold scaledRows
  rw [mulf_apply]
  -- the value, broadcast to a column and then along the lanes
  have hv : broadcastInDim S1835008x128 ![0, 1] bcast_S1835008x1_S1835008x128_0_1
      (broadcastInDim S1835008x1 ![0] bcast_S1835008_S1835008x1_0 x2) (ix2 e b) = x2 (ix1 e) :=
    (broadcastInDim_apply _ _ _ (ix2 e b) (ix2 e (0 : Fin 1))
      fun a => match a with | ⟨0, _⟩ => rfl | ⟨1, _⟩ => rfl).trans (column_apply x2 (ix2 e (0 : Fin 1)))
  -- the gathered row of the transposed prediction
  have hg : Host.gather gather_S262144x128_S1835008x1_S1835008x128_1_0_n_n_0_1_1128
      (transpose S262144x128 [1, 0] x0 transposes_S128x262144_S262144x128_1_0) (startColumn x4) (ix2 e b)
        = x0 (ix2 b (Cert.Residual.colOf x4 e)) := by
    rw [startColumn_eq]
    exact (GatherRows.gather_rows_apply (by norm_num) _ rfl rfl rfl rfl rfl rfl _ _ (ix2 e b)).trans
      (transpose_ix2_apply x0 _ _ b)
  rw [hv, hg]

/-- THE SCATTER READ AT `(n, b)`: the specification's `A yp` for batch row `b` at unknown `n`. -/
theorem yaHost_apply (x0 : FVec Ideal S128x262144 .f32) (x2 : FVec Ideal S1835008 .f32) (x3 x4 : IVec S1835008 32)
    (n : Fin 262144) (b : Fin 128) :
    yaHost x0 x2 x3 x4 (ix2 n b) = Cert.Residual.ya x0 x2 x3 x4 b n := by
  unfold yaHost
  refine (ScatterRows.scatterAdd_rows_apply scatter_S262144x128_S1835008x1_S1835008x128_1_0_0_1 rfl rfl rfl rfl
    _ _ _ n b).trans ?_
  rw [rowColumn_eq]
  unfold Cert.Residual.ya Cert.Residual.applyA
  -- the operand is the zero matrix
  have hz : (broadcastInDim S262144x128 ![] bcast_S_S262144x128 (constant (F := Ideal) S_ .f32 0x00000000#32)
      (ix2 n b) : EReal) = 0 := Ideal.ofBits_zero_f32
  rw [hz]
  refine congrArg (fun t => (0 : EReal) + t) ?_
  exact Finset.sum_congr rfl fun e _ => scaledRows_apply x0 x2 x4 e b

/-! ## The region's three arrays -/

variable (m : (ℓ : Loc nD τ sig) → Buf (Elt Ideal) ℓ) (c : Dev nD)

/-- The transposed prediction, whole. -/
theorem V_v0_eq : (Gen.V (F := Ideal) m c main_v0 : S262144x128.Idx → EReal)
    = transpose S262144x128 [1, 0] (m ((c.tc : Thread nD τ).loc main_arg0)) transposes_S128x262144_S262144x128_1_0 := by
  show StableHlo.after hostOps0 (fun b => m (c, b)) (Proc.devRef .tc main_v0) = _
  after_results

/-- The transposed truth, whole. -/
theorem V_v1_eq : (Gen.V (F := Ideal) m c main_v1 : S262144x128.Idx → EReal)
    = transpose S262144x128 [1, 0] (m ((c.tc : Thread nD τ).loc main_arg1)) transposes_S128x262144_S262144x128_1_0 := by
  show StableHlo.after hostOps0 (fun b => m (c, b)) (Proc.devRef .tc main_v1) = _
  after_results

/-- The scatter's result, whole. -/
theorem V_v14_eq : (Gen.V (F := Ideal) m c main_v14 : S262144x128.Idx → EReal)
    = yaHost (m ((c.tc : Thread nD τ).loc main_arg0)) (m ((c.tc : Thread nD τ).loc main_arg2))
        (m ((c.tc : Thread nD τ).loc main_arg3)) (m ((c.tc : Thread nD τ).loc main_arg4)) := by
  -- the operations' term is read off against an arbitrary right-hand side, then compared with `yaHost`'s definition
  have key : ∀ X : S262144x128.Idx → EReal,
      yaHost (m ((c.tc : Thread nD τ).loc main_arg0)) (m ((c.tc : Thread nD τ).loc main_arg2))
        (m ((c.tc : Thread nD τ).loc main_arg3)) (m ((c.tc : Thread nD τ).loc main_arg4)) = X →
      StableHlo.after hostOps0 (fun b => m (c, b)) (Proc.devRef .tc main_v14) = X := by
    intro X hX
    after_results
    exact hX
  exact key _ rfl

/-- The region's prediction array at row `n`, lane `b`: the argument at batch row `b`, unknown `n`. -/
theorem V_yp (n : Fin 262144) (b : Fin 128) :
    Gen.V (F := Ideal) m c main_v0 (ix2 n b) = m ((c.tc : Thread nD τ).loc main_arg0) (ix2 b n) :=
  (congrFun (V_v0_eq m c) (ix2 n b)).trans (transpose_ix2_apply _ _ n b)

/-- The region's truth array at row `n`, lane `b`: the argument at batch row `b`, unknown `n`. -/
theorem V_yt (n : Fin 262144) (b : Fin 128) :
    Gen.V (F := Ideal) m c main_v1 (ix2 n b) = m ((c.tc : Thread nD τ).loc main_arg1) (ix2 b n) :=
  (congrFun (V_v1_eq m c) (ix2 n b)).trans (transpose_ix2_apply _ _ n b)

/-- The region's `A yp` array at row `n`, lane `b`: the specification's `ya` of the arguments for batch row `b` at
    unknown `n`. -/
theorem V_ya (n : Fin 262144) (b : Fin 128) :
    Gen.V (F := Ideal) m c main_v14 (ix2 n b)
      = Cert.Residual.ya (m ((c.tc : Thread nD τ).loc main_arg0)) (m ((c.tc : Thread nD τ).loc main_arg2))
          (m ((c.tc : Thread nD τ).loc main_arg3)) (m ((c.tc : Thread nD τ).loc main_arg4)) b n :=
  (congrFun (V_v14_eq m c) (ix2 n b)).trans (yaHost_apply _ _ _ _ n b)

end Cert.KernelIdeal.Host

end
-- ==== Proof.KernelTail.lean ====
/-
  The program's run with its result named.

  After the region the program sums the region's output row `[1, 128]` over both axes, from zero, and divides by the
  constant 128: the mean over the 128 lanes of what the region left. The generated frame run states every array of the
  region at the end and every other buffer as the lines after the region leave it; read at the program's result this
  is the mean of the region's output row, and read at the five arguments it is the launch contents.
-/
import proofs.«118962_j67894843015536_2_alg».proof.Proof.Gen.KernelIdeal.Frame
import proofs.«118962_j67894843015536_2_alg».proof.Proof.Residual
import Idealize.ShloMosaic.PureOps.Ideal.Laws

noncomputable section

open scoped BigOperators

namespace Cert.KernelIdeal.Host

open Idealize.ShloMosaic Idealize.ShloMosaic.TcCoe Idealize.SL.Sem
open Cert.KernelIdeal Cert.KernelIdeal.Gen Idealize.ShloMosaic.ValueIdx

/-- The lines after the region, of any row `A`: the sum of its 128 lanes from zero, divided by the constant. -/
theorem tail_apply (A : FVec Ideal S1x128 .f32) :
    Host.divf (Host.reduceAdd A (constant (F := Ideal) S_ .f32 0x00000000#32) reducesTo_S1x128_S_d0_1 h_S_)
        (constant (F := Ideal) S_ .f32 0x43000000#32)
      = fun _ => Cert.Residual.mean (Ideal.ofBits .f32 0x43000000#32) (fun b : Fin 128 => A (ix2 (0 : Fin 1) b)) := by
  funext j
  show Ideal.div (Ideal.hostReduceAdd reducesTo_S1x128_S_d0_1 A (Ideal.ofBits .f32 0x00000000#32) j)
    (Ideal.ofBits .f32 0x43000000#32) = _
  -- a sum into the scalar shape is the sum over every index of the row; the row has one sublane
  rw [Ideal.hostReduceAdd_total _ (fun b => b.elim0), Ideal.ofBits_zero_f32, sum_idx2 (n0 := 1) (n1 := 128),
    Fin.sum_univ_one]
  rfl

variable (m : (ℓ : Loc nD τ sig) → Buf (Elt Ideal) ℓ)

/-- The program's result after the lines that follow the region, from what the region's output array holds at the end. -/
theorem tail_v17 (c : Dev nD) (G : S1x128.Idx → EReal)
    (hfinal : (Gen.dats (F := Ideal) m 0 c).arrAt 3 cfg0.N = G) :
    Pipeline.afterTail₀ cfgs (Gen.dats (F := Ideal) m) 0 (Gen.V0 m) [hostOps1] c main_v17
      = fun _ => Cert.Residual.mean (Ideal.ofBits .f32 0x43000000#32) (fun b : Fin 128 => G (ix2 (0 : Fin 1) b)) := by
  -- the output array after the region is the frame's final array
  have hA : Pipeline.withArrays (cfgs 0).spec c (V0 m c) (fun w => (dats m 0 c).arrAt w (cfgs 0).N)
      (Proc.devRef .tc main_v15) = G :=
    (Pipeline.withArrays_arr spec0 launch0.win.arr_inj c _ _ 3).trans hfinal
  -- the two lines' term, read off against an arbitrary right-hand side
  have key : ∀ X : S_.Idx → EReal,
      Host.divf (Host.reduceAdd
          (Pipeline.withArrays (cfgs 0).spec c (V0 m c) (fun w => (dats m 0 c).arrAt w (cfgs 0).N)
            (Proc.devRef .tc main_v15))
          (constant (F := Ideal) S_ .f32 0x00000000#32) reducesTo_S1x128_S_d0_1 h_S_)
        (constant (F := Ideal) S_ .f32 0x43000000#32) = X →
      Pipeline.afterTail₀ cfgs (Gen.dats (F := Ideal) m) 0 (Gen.V0 m) [hostOps1] c main_v17 = X := by
    intro X hX
    unfold Pipeline.afterTail₀
    show StableHlo.after hostOps1 _ (Proc.devRef .tc main_v17) = _
    after_results
    exact hX
  refine key _ ?_
  rw [hA]
  exact tail_apply G

/-- THE PROGRAM'S RUN: every weakly fair execution terminates with the result at the mean, over the 128 lanes, of the
    region's output row (`G`, whatever the region's final output array is shown to be), the divisor the program's
    constant, and the five arguments as launched. -/
theorem kernel_run (ρ : Dev nD → PrngReg) (G : Dev nD → S1x128.Idx → EReal)
    (hfinal : ∀ c, (Gen.dats (F := Ideal) m 0 c).arrAt 3 cfg0.N = G c) :
    θ_run defs (onTc (τ := τ) (main (F := Ideal))) ⟨m, fun _ => 0, ρ⟩ (fun r => ∀ c : Dev nD,
      r.2.mem ((c.tc : Thread nD τ).loc main_v17)
          = (fun _ => Cert.Residual.mean (Ideal.ofBits .f32 0x43000000#32) (fun b : Fin 128 => G c (ix2 (0 : Fin 1) b)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v17 (Pipeline.mem_restRefs_of main_v17 (by decide) (by decide))).trans
        (tail_v17 m c (G c) (hfinal c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Host

end
-- ==== Proof.lean ====
/-
  The mean residual energy of a batch against a sparse operator, computed two ways, is one number.

  For each of 128 batch rows, with prediction yp and truth yt over 262144 unknowns and a sparse operator A stored as
  1835008 entries (a value, a row, a column; an entry whose row number names no row is dropped, a column number is
  counted from the end when negative and clamped into range), let ya = A yp, c = <yt,yp> / <yp,ya>, and take the mean
  over the rows of the energy  sum_n (yt n - c ya n)^2.

  The reference evaluates that as written. The kernel transposes the two matrices, forms ya by the same gather,
  product and scatter-add in the transposed layout, and in one pass over 32 blocks of 8192 rows accumulates the five
  inner products <yt,yp>, <yp,ya>, <yt,yt>, <yt,ya>, <ya,ya> per batch row; after the last block it writes the expanded
  square  <yt,yt> - (2c)<yt,ya> + (c c)<ya,ya>,  and the host sums the 128 rows and divides by 128.

  Over the extended reals the two agree where the expansion is a law: every entry a real number, and the divisor
  <yp,ya> of every batch row nonzero, so that c is a real number. That is what the precondition says (Proof/Domain.lean);
  the law is Proof/ResidualLaw.lean over the specification Proof/Residual.lean. The reference's result is the
  specification's direct form (Proof/ReferenceValue.lean, over the column forms of the gather and the scatter-add);
  the kernel's is its expanded form: what the region leaves in its output (Proof/KernelTotals.lean, the accumulation
  over the blocks), what the arrays it reads hold (Proof/KernelArrays.lean, the row forms of the gather and the
  scatter-add, and the transposes), and the host's mean after the region (Proof/KernelTail.lean).
  The idealization pass rewrote no operation of the kernel, so the claim that relates the kernel to its idealization
  has no conjunct to prove (it is stated as `True`).
-/
import proofs.«118962_j67894843015536_2_alg».proof.Defs
import proofs.«118962_j67894843015536_2_alg».proof.Proof.Gen.Kernel
import proofs.«118962_j67894843015536_2_alg».proof.Proof.Gen.Kernel.Skeleton
import proofs.«118962_j67894843015536_2_alg».proof.Proof.Gen.Kernel.Launch
import proofs.«118962_j67894843015536_2_alg».proof.Proof.Gen.Kernel.Points
import proofs.«118962_j67894843015536_2_alg».proof.Proof.Gen.Kernel.Frame
import proofs.«118962_j67894843015536_2_alg».proof.Proof.Gen.KernelIdeal
import proofs.«118962_j67894843015536_2_alg».proof.Proof.Gen.KernelIdeal.Skeleton
import proofs.«118962_j67894843015536_2_alg».proof.Proof.Gen.KernelIdeal.Launch
import proofs.«118962_j67894843015536_2_alg».proof.Proof.Gen.KernelIdeal.Points
import proofs.«118962_j67894843015536_2_alg».proof.Proof.Gen.KernelIdeal.Frame
import proofs.«118962_j67894843015536_2_alg».proof.Proof.Gen.ReferenceIdeal
import proofs.«118962_j67894843015536_2_alg».proof.Proof.Gen.Pre_finite_inputs
import proofs.«118962_j67894843015536_2_alg».proof.Proof.Gen.ReferenceIdeal.Run
import proofs.«118962_j67894843015536_2_alg».proof.Proof.Gen.ReferenceIdeal.Read
import proofs.«118962_j67894843015536_2_alg».proof.Proof.ResidualLaw
import proofs.«118962_j67894843015536_2_alg».proof.Proof.Domain
import proofs.«118962_j67894843015536_2_alg».proof.Proof.ReferenceValue
import proofs.«118962_j67894843015536_2_alg».proof.Proof.KernelTotals
import proofs.«118962_j67894843015536_2_alg».proof.Proof.KernelArrays
import proofs.«118962_j67894843015536_2_alg».proof.Proof.KernelTail
import Idealize.ShloMosaic.Adequacy
import Idealize.ShloMosaic.Init

noncomputable section

open Idealize.ShloMosaic Idealize.ShloMosaic.TcCoe Idealize.SL.Sem Idealize.ShloMosaic.ValueIdx

namespace Cert.Proof.Claims
open Cert.Residual

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

open Cert.KernelIdeal in
/-- The kernel's result, from the region's output and the three arrays the region reads, is the accumulating
    program's result of the specification. -/
theorem kernel_value (m : (ℓ : Loc nD τ sig) → Buf (Elt Ideal) ℓ) (c : Dev nD) :
    Cert.Residual.mean (Ideal.ofBits .f32 0x43000000#32)
        (fun b : Fin 128 => (Gen.dats (F := Ideal) m 0 c).arrAt 3 cfg0.N (ix2 0 b))
      = resultExpanded (Ideal.ofBits .f32 0x40000000#32) (Ideal.ofBits .f32 0x43000000#32)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  unfold resultExpanded
  refine congrArg (Cert.Residual.mean _) (funext fun b => ?_)
  have e0 : (fun n : Fin 262144 => Gen.V (F := Ideal) m c main_v0 (ix2 n b))
      = fun n => m ((c.tc : Thread nD τ).loc main_arg0) (ix2 b n) := funext fun n => Cert.KernelIdeal.Host.V_yp m c n b
  have e1 : (fun n : Fin 262144 => Gen.V (F := Ideal) m c main_v1 (ix2 n b))
      = fun n => m ((c.tc : Thread nD τ).loc main_arg1) (ix2 b n) := funext fun n => Cert.KernelIdeal.Host.V_yt m c n b
  have e2 : (fun n : Fin 262144 => Gen.V (F := Ideal) m c main_v14 (ix2 n b))
      = Cert.Residual.ya (m ((c.tc : Thread nD τ).loc main_arg0)) (m ((c.tc : Thread nD τ).loc main_arg2))
          (m ((c.tc : Thread nD τ).loc main_arg3)) (m ((c.tc : Thread nD τ).loc main_arg4)) b :=
    funext fun n => Cert.KernelIdeal.Host.V_ya m c n b
  rw [Cert.KernelIdeal.Accumulate.final3 m c]
  show laneExpanded _ (fun n : Fin 262144 => Gen.V (F := Ideal) m c main_v0 (ix2 n b))
      (fun n : Fin 262144 => Gen.V (F := Ideal) m c main_v1 (ix2 n b))
      (fun n : Fin 262144 => Gen.V (F := Ideal) m c main_v14 (ix2 n b)) = _
  rw [e0, e1, e2]

theorem algebraic : Cert.algebraic_KernelIdeal_ReferenceIdeal := by
  intro m ρ m' ρ' hpre hagree
  refine ⟨fun c => fun _ => resultDirect (Ideal.ofBits .f32 0x43000000#32)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.Host.kernel_run m ρ (fun c => (Cert.KernelIdeal.Gen.dats (F := Ideal) m 0 c).arrAt 3 Cert.KernelIdeal.cfg0.N)
        (fun c => rfl))
    funext _
    rw [kernel_value m c]
    obtain ⟨h0, h1, h2, hden⟩ := Cert.Residual.Domain.decode _ _ _ _ _ (hpre c)
    refine resultExpanded_eq_resultDirect _ _ two_bits _ _ _ _ _ h0 h1 h2 (fun b => ?_)
    have := hden (ix1 b)
    rwa [Cert.Residual.Reference.divisor_eq] at this
  · refine (θ_run Cert.ReferenceIdeal.defs _ _).mono (fun r h c => ⟨(h c).1.trans ?_, (h c).2⟩)
      (Cert.ReferenceIdeal.Value.run (F := Ideal) m' ρ')
    show Cert.ReferenceIdeal.Value.res_main_v26 m' c = fun _ => resultDirect (Ideal.ofBits .f32 0x43000000#32)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
    rw [Cert.ReferenceIdeal.Read.val_main_v26_eq, Cert.Residual.Reference.value_eq,
      (hagree c).1, (hagree c).2.1, (hagree c).2.2.1, (hagree c).2.2.2.1, (hagree c).2.2.2.2]
    rfl

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
